-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x256 : Shape := ⟨3, ![8192, 64, 256]⟩
abbrev S_ : Shape := ⟨0, ![]⟩

class Facts : Prop where
  bcast_S_S8192x64x256 : S_.BroadcastsInDim S8192x64x256 (![] : Fin 0 → Fin S8192x64x256.rank)
  reducesTo_S8192x64x256_S_d0_1_2 : S8192x64x256.ReducesTo [0, 1, 2] S_
  h_S_ : 0 < S_.numel

variable [Facts]

def fn {F : FTy → Type} [FloatOps F] (main_arg0 : FVec F S8192x64x256 .f32) : IVec S_ 1 :=
  let main_v0 : FVec F S8192x64x256 .f32 := Host.absf main_arg0
  let main_cst : FVec F S_ .f32 := constant S_ .f32 0x7F800000#32
  let main_v1 : FVec F S8192x64x256 .f32 := broadcastInDim S8192x64x256 ![] bcast_S_S8192x64x256 main_cst
  let main_v2 : IVec S8192x64x256 1 := cmpf .olt main_v0 main_v1
  let main_c : IVec S_ 1 := constantI S_ 1 1#1
  let main_v3 : IVec S_ 1 := (fun x v => Host.reduce IntOp.andi x v reducesTo_S8192x64x256_S_d0_1_2 h_S_) main_v2 main_c
  main_v3
-- ==== Kernel.lean ====
abbrev S8192x64x256 : Shape := ⟨3, ![8192, 64, 256]⟩
abbrev S2016 : Shape := ⟨1, ![2016]⟩
abbrev S8192x64x64 : Shape := ⟨3, ![8192, 64, 64]⟩
abbrev S128x64x256 : Shape := ⟨3, ![128, 64, 256]⟩
abbrev S128x64x64 : Shape := ⟨3, ![128, 64, 64]⟩
abbrev S16x64x256 : Shape := ⟨3, ![16, 64, 256]⟩
abbrev S16x64x64 : Shape := ⟨3, ![16, 64, 64]⟩
abbrev S_ : Shape := ⟨0, ![]⟩
abbrev S2016x1 : Shape := ⟨2, ![2016, 1]⟩
abbrev S2016x2 : Shape := ⟨2, ![2016, 2]⟩
abbrev S8192x2016 : Shape := ⟨2, ![8192, 2016]⟩

abbrev nBuf : Space → Nat
  | .hbm => 22
  | .vmem => 4
  | .smem => 0
  | _ => 0

abbrev bufTy : (tb : Table) → Fin (tcTables nBuf tb) → BufTy
  | .hbm, ⟨0, _⟩ => ⟨S8192x64x256, .f32⟩
  | .hbm, ⟨1, _⟩ => ⟨S2016, .i32⟩
  | .hbm, ⟨2, _⟩ => ⟨S2016, .i32⟩
  | .hbm, ⟨3, _⟩ => ⟨S8192x64x64, .f32⟩
  | .hbm, ⟨4, _⟩ => ⟨S_, .i32⟩
  | .hbm, ⟨5, _⟩ => ⟨S2016, .i32⟩
  | .hbm, ⟨6, _⟩ => ⟨S2016, .i1⟩
  | .hbm, ⟨7, _⟩ => ⟨S_, .i32⟩
  | .hbm, ⟨8, _⟩ => ⟨S2016, .i32⟩
  | .hbm, ⟨9, _⟩ => ⟨S2016, .i32⟩
  | .hbm, ⟨10, _⟩ => ⟨S2016, .i32⟩
  | .hbm, ⟨11, _⟩ => ⟨S_, .i32⟩
  | .hbm, ⟨12, _⟩ => ⟨S2016, .i32⟩
  | .hbm, ⟨13, _⟩ => ⟨S2016, .i1⟩
  | .hbm, ⟨14, _⟩ => ⟨S_, .i32⟩
  | .hbm, ⟨15, _⟩ => ⟨S2016, .i32⟩
  | .hbm, ⟨16, _⟩ => ⟨S2016, .i32⟩
  | .hbm, ⟨17, _⟩ => ⟨S2016, .i32⟩
  | .hbm, ⟨18, _⟩ => ⟨S2016x1, .i32⟩
  | .hbm, ⟨19, _⟩ => ⟨S2016x1, .i32⟩
  | .hbm, ⟨20, _⟩ => ⟨S2016x2, .i32⟩
  | .hbm, ⟨21, _⟩ => ⟨S8192x2016, .f32⟩
  | .local _ .vmem, ⟨0, _⟩ => ⟨S128x64x256, .f32⟩
  | .local _ .vmem, ⟨1, _⟩ => ⟨S128x64x256, .f32⟩
  | .local _ .vmem, ⟨2, _⟩ => ⟨S128x64x64, .f32⟩
  | .local _ .vmem, ⟨3, _⟩ => ⟨S128x64x64, .f32⟩
  | _, _ => ⟨S8192x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_c_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c16_i32 : BitVec 32 := 16#32
  let v0 : BitVec 32 := Scalar.muli c0_i32 c16_i32
  v0
def k0_off1 (c0_i32 : BitVec 32) : Fin 3 → Nat :=
  let c16_i32 : BitVec 32 := 16#32
  let v0 : BitVec 32 := Scalar.muli c0_i32 c16_i32
  let v1 : BitVec 32 := v0
  let v2 : Index := Scalar.indexCast v1
  let c0 : Index := 0#32
  let c0_0 : Index := 0#32
  ![v2.toNat, 0, 0]
def k0_off2 (c0_i32 : BitVec 32) : Fin 3 → Nat :=
  let c16_i32 : BitVec 32 := 16#32
  let v0 : BitVec 32 := Scalar.muli c0_i32 c16_i32
  let v1 : BitVec 32 := v0
  let v6 : Index := Scalar.indexCast v1
  let c0_1 : Index := 0#32
  let c0_2 : Index := 0#32
  ![v6.toNat, 0, 0]
def k0_mult2 : BitVec 32 :=
  let c1_i32 : BitVec 32 := 1#32
  let c16_i32_3 : BitVec 32 := 16#32
  let v8 : BitVec 32 := Scalar.muli c1_i32 c16_i32_3
  v8
def k0_mult3 : BitVec 32 :=
  let c2_i32 : BitVec 32 := 2#32
  let c16_i32_9 : BitVec 32 := 16#32
  let v16 : BitVec 32 := Scalar.muli c2_i32 c16_i32_9
  v16
def k0_mult4 : BitVec 32 :=
  let c3_i32 : BitVec 32 := 3#32
  let c16_i32_15 : BitVec 32 := 16#32
  let v24 : BitVec 32 := Scalar.muli c3_i32 c16_i32_15
  v24
def k0_mult5 : BitVec 32 :=
  let c4_i32 : BitVec 32 := 4#32
  let c16_i32_21 : BitVec 32 := 16#32
  let v32 : BitVec 32 := Scalar.muli c4_i32 c16_i32_21
  v32
def k0_mult6 : BitVec 32 :=
  let c5_i32 : BitVec 32 := 5#32
  let c16_i32_27 : BitVec 32 := 16#32
  let v40 : BitVec 32 := Scalar.muli c5_i32 c16_i32_27
  v40
def k0_mult7 : BitVec 32 :=
  let c6_i32 : BitVec 32 := 6#32
  let c16_i32_33 : BitVec 32 := 16#32
  let v48 : BitVec 32 := Scalar.muli c6_i32 c16_i32_33
  v48
def k0_mult8 : BitVec 32 :=
  let c7_i32 : BitVec 32 := 7#32
  let c16_i32_39 : BitVec 32 := 16#32
  let v56 : BitVec 32 := Scalar.muli c7_i32 c16_i32_39
  v56
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S16x64x256 : 0 < S16x64x256.numel
  bitsLt_bf16_f32 : FTy.bits .bf16 < FTy.bits .f32
  h_S16x64x64 : 0 < S16x64x64.numel
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S16x64x256_S16x64x256_S16x64x64_2_2_1_1_0_0_wf : DotDims.WF S16x64x256 S16x64x256 S16x64x64 [2] [2] [1] [1] [0] [0]
  gather_S8192x64x64_S2016x2_S8192x2016_0_12_n_n_12_1_819211_wf : GatherDims.WF S8192x64x64 S2016x2 S8192x2016 [0] [1, 2] [] [1, 2] [] 1 ![8192, 1, 1]
  hrank0 : 0 < grid0.rank
  k0_mult1_dvd : 16 ∣ k0_mult1.toNat
  k0_off1_inb : ∀ (r : Fin 8), ∀ a, (k0_off1 (BitVec.ofNat 32 r.val)) a + S16x64x256.size a ≤ S128x64x256.size a
  k0_off2_inb : ∀ (r : Fin 8), ∀ a, (k0_off2 (BitVec.ofNat 32 r.val)) a + S16x64x64.size a ≤ S128x64x64.size a
  k0_mult2_dvd : 16 ∣ k0_mult2.toNat
  k0_mult3_dvd : 16 ∣ k0_mult3.toNat
  k0_mult4_dvd : 16 ∣ k0_mult4.toNat
  k0_mult5_dvd : 16 ∣ k0_mult5.toNat
  k0_mult6_dvd : 16 ∣ k0_mult6.toNat
  k0_mult7_dvd : 16 ∣ k0_mult7.toNat
  k0_mult8_dvd : 16 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x256.size a ≤ S8192x64x256.size a
  hwx0_0 : ∀ i : grid0.Coords, EltTy.bits .f32 = 32 ∨ (Rect.block (s := S8192x64x256) S128x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S8192x64x64.size a
  hwx0_1 : ∀ i : grid0.Coords, EltTy.bits .f32 = 32 ∨ (Rect.block (s := S8192x64x64) S128x64x64.size (cc0_transform_1 i) (hinb0_1 i)).WholeWords (EltTy.packing .f32)

variable [Facts₀]

def dot_S16x64x256_S16x64x256_S16x64x64_2_2_1_1_0_0 : DotDims S16x64x256 S16x64x256 S16x64x64 where
  lhsContracting := [2]
  rhsContracting := [2]
  lhsNonContracting := [1]
  rhsNonContracting := [1]
  lhsBatch := [0]
  rhsBatch := [0]
  wf := dot_S16x64x256_S16x64x256_S16x64x64_2_2_1_1_0_0_wf
def gather_S8192x64x64_S2016x2_S8192x2016_0_12_n_n_12_1_819211 : GatherDims S8192x64x64 S2016x2 S8192x2016 where
  offsetDims := [0]
  collapsedSliceDims := [1, 2]
  operandBatchingDims := []
  startIndicesBatchingDims := []
  startIndexMap := [1, 2]
  indexVectorDim := 1
  sliceSizes := ![8192, 1, 1]
  wf := gather_S8192x64x64_S2016x2_S8192x2016_0_12_n_n_12_1_819211_wf

abbrev win0_0 : Pipeline.Window sig grid0 :=
  Pipeline.Window.ofSpec (Memref.whole main_arg0) S128x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x64x256 : Shape := ⟨3, ![8192, 64, 256]⟩
abbrev S8192x64x64 : Shape := ⟨3, ![8192, 64, 64]⟩
abbrev S_ : Shape := ⟨0, ![]⟩
abbrev S64x64 : Shape := ⟨2, ![64, 64]⟩
abbrev S4096 : Shape := ⟨1, ![4096]⟩
abbrev S2016 : Shape := ⟨1, ![2016]⟩
abbrev S4096x1 : Shape := ⟨2, ![4096, 1]⟩
abbrev S2016x1 : Shape := ⟨2, ![2016, 1]⟩
abbrev S2016x2 : Shape := ⟨2, ![2016, 2]⟩
abbrev S8192x2016 : Shape := ⟨2, ![8192, 2016]⟩

abbrev nBuf : Space → Nat
  | .hbm => 137
  | .vmem => 0
  | .smem => 0
  | _ => 0

abbrev hbmTy0_0 (i : Nat) : BufTy := match i % 128 with
  | 0 => ⟨S8192x64x256, .f32⟩
  | 1 => ⟨S8192x64x64, .f32⟩
  | 2 => ⟨S_, .f32⟩
  | 3 => ⟨S64x64, .f32⟩
  | 4 => ⟨S64x64, .i32⟩
  | 5 => ⟨S_, .i32⟩
  | 6 => ⟨S64x64, .i32⟩
  | 7 => ⟨S64x64, .i32⟩
  | 8 => ⟨S64x64, .i32⟩
  | 9 => ⟨S64x64, .i1⟩
  | 10 => ⟨S_, .f32⟩
  | 11 => ⟨S64x64, .f32⟩
  | 12 => ⟨S64x64, .f32⟩
  | 13 => ⟨S_, .f32⟩
  | 14 => ⟨S64x64, .f32⟩
  | 15 => ⟨S64x64, .i1⟩
  | 16 => ⟨S4096, .i1⟩
  | 17 => ⟨S4096, .i32⟩
  | 18 => ⟨S_, .i32⟩
  | 19 => ⟨S_, .i32⟩
  | 20 => ⟨S4096, .i32⟩
  | 21 => ⟨S_, .i32⟩
  | 22 => ⟨S2016, .i32⟩
  | 23 => ⟨S_, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S_, .i32⟩
  | 36 => ⟨S4096, .i32⟩
  | 37 => ⟨S2016, .i32⟩
  | 38 => ⟨S_, .i32⟩
  | 39 => ⟨S_, .i32⟩
  | 40 => ⟨S2016, .i32⟩
  | 41 => ⟨S_, .i32⟩
  | 42 => ⟨S2016, .i32⟩
  | 43 => ⟨S2016, .i32⟩
  | 44 => ⟨S2016, .i32⟩
  | 45 => ⟨S_, .i32⟩
  | 46 => ⟨S2016, .i32⟩
  | 47 => ⟨S2016, .i1⟩
  | 48 => ⟨S2016, .i32⟩
  | 49 => ⟨S2016, .i32⟩
  | 50 => ⟨S_, .i32⟩
  | 51 => ⟨S2016, .i32⟩
  | 52 => ⟨S2016, .i1⟩
  | 53 => ⟨S2016, .i1⟩
  | 54 => ⟨S_, .i32⟩
  | 55 => ⟨S2016, .i32⟩
  | 56 => ⟨S2016, .i32⟩
  | 57 => ⟨S2016, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S2016, .i32⟩
  | 65 => ⟨S2016, .i32⟩
  | 66 => ⟨S_, .i32⟩
  | 67 => ⟨S2016, .i32⟩
  | 68 => ⟨S2016, .i1⟩
  | 69 => ⟨S_, .i32⟩
  | 70 => ⟨S2016, .i32⟩
  | 71 => ⟨S2016, .i1⟩
  | 72 => ⟨S_, .i32⟩
  | 73 => ⟨S_, .i1⟩
  | 74 => ⟨S2016, .i1⟩
  | 75 => ⟨S2016, .i1⟩
  | 76 => ⟨S2016, .i1⟩
  | 77 => ⟨S2016, .i32⟩
  | 78 => ⟨S2016, .i32⟩
  | 79 => ⟨S2016, .i32⟩
  | 80 => ⟨S_, .i32⟩
  | 81 => ⟨S2016, .i32⟩
  | 82 => ⟨S2016, .i32⟩
  | 83 => ⟨S2016, .i32⟩
  | 84 => ⟨S_, .i32⟩
  | 85 => ⟨S2016, .i32⟩
  | 86 => ⟨S2016, .i1⟩
  | 87 => ⟨S2016, .i32⟩
  | 88 => ⟨S2016, .i32⟩
  | 89 => ⟨S_, .i32⟩
  | 90 => ⟨S2016, .i32⟩
  | 91 => ⟨S2016, .i1⟩
  | 92 => ⟨S2016, .i1⟩
  | 93 => ⟨S_, .i32⟩
  | 94 => ⟨S2016, .i32⟩
  | 95 => ⟨S2016, .i32⟩
  | 96 => ⟨S2016, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S2016, .i32⟩
  | 104 => ⟨S2016, .i32⟩
  | 105 => ⟨S_, .i32⟩
  | 106 => ⟨S2016, .i32⟩
  | 107 => ⟨S2016, .i1⟩
  | 108 => ⟨S_, .i32⟩
  | 109 => ⟨S2016, .i32⟩
  | 110 => ⟨S2016, .i1⟩
  | 111 => ⟨S_, .i32⟩
  | 112 => ⟨S_, .i1⟩
  | 113 => ⟨S2016, .i1⟩
  | 114 => ⟨S2016, .i1⟩
  | 115 => ⟨S2016, .i1⟩
  | 116 => ⟨S2016, .i32⟩
  | 117 => ⟨S2016, .i32⟩
  | 118 => ⟨S2016, .i32⟩
  | 119 => ⟨S_, .i32⟩
  | 120 => ⟨S2016, .i32⟩
  | 121 => ⟨S2016, .i1⟩
  | 122 => ⟨S_, .i32⟩
  | 123 => ⟨S2016, .i32⟩
  | 124 => ⟨S2016, .i32⟩
  | 125 => ⟨S2016, .i32⟩
  | 126 => ⟨S_, .i32⟩
  | 127 => ⟨S2016, .i32⟩
  | _ => ⟨S8192x64x256, .f32⟩

abbrev hbmTy0_1 (i : Nat) : BufTy := match i % 128 with
  | 0 => ⟨S2016, .i1⟩
  | 1 => ⟨S_, .i32⟩
  | 2 => ⟨S2016, .i32⟩
  | 3 => ⟨S2016, .i32⟩
  | 4 => ⟨S2016, .i32⟩
  | 5 => ⟨S2016x1, .i32⟩
  | 6 => ⟨S2016x1, .i32⟩
  | 7 => ⟨S2016x2, .i32⟩
  | 8 => ⟨S8192x2016, .f32⟩
  | _ => ⟨S8192x64x256, .f32⟩

abbrev hbmTy (i : Nat) : BufTy := match i / 128 with
  | 0 => hbmTy0_0 i
  | 1 => hbmTy0_1 i
  | _ => ⟨S8192x64x256, .f32⟩

abbrev bufTy : (tb : Table) → Fin (tcTables nBuf tb) → BufTy
  | .hbm, ⟨i, _⟩ => hbmTy i
  | _, _ => ⟨S8192x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2016 : S_.BroadcastsInDim S2016 (![] : Fin 0 → Fin S2016.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2016_S2016_w2016s1p2015_0 : S2016.ReduceWindows (![2016] : Fin 1 → Nat) ![1] ![2015] ![0] S2016
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S8192x64x256_S8192x64x256_S8192x64x64_2_2_1_1_0_0_wf : DotDims.WF S8192x64x256 S8192x64x256 S8192x64x64 [2] [2] [1] [1] [0] [0]
  scatter_S2016_S4096x1_S4096_n_0_0_1_wf : ScatterDims.WF S2016 S4096x1 S4096 [] [0] [0] 1
  gather_S8192x64x64_S2016x2_S8192x2016_0_12_n_n_12_1_819211_wf : GatherDims.WF S8192x64x64 S2016x2 S8192x2016 [0] [1, 2] [] [1, 2] [] 1 ![8192, 1, 1]

variable [Facts₀]

def dot_S8192x64x256_S8192x64x256_S8192x64x64_2_2_1_1_0_0 : DotDims S8192x64x256 S8192x64x256 S8192x64x64 where
  lhsContracting := [2]
  rhsContracting := [2]
  lhsNonContracting := [1]
  rhsNonContracting := [1]
  lhsBatch := [0]
  rhsBatch := [0]
  wf := dot_S8192x64x256_S8192x64x256_S8192x64x64_2_2_1_1_0_0_wf
def scatter_S2016_S4096x1_S4096_n_0_0_1 : ScatterDims S2016 S4096x1 S4096 where
  updateWindowDims := []
  insertedWindowDims := [0]
  scatterDimsToOperandDims := [0]
  indexVectorDim := 1
  wf := scatter_S2016_S4096x1_S4096_n_0_0_1_wf
def gather_S8192x64x64_S2016x2_S8192x2016_0_12_n_n_12_1_819211 : GatherDims S8192x64x64 S2016x2 S8192x2016 where
  offsetDims := [0]
  collapsedSliceDims := [1, 2]
  operandBatchingDims := []
  startIndicesBatchingDims := []
  startIndexMap := [1, 2]
  indexVectorDim := 1
  sliceSizes := ![8192, 1, 1]
  wf := gather_S8192x64x64_S2016x2_S8192x2016_0_12_n_n_12_1_819211_wf

class Facts : Prop extends Facts₀ where

variable [Facts]
-- ==== Proof.KernelChunk.lean ====
/-
  One chunk of the kernel body, over the extended reals: sixteen batch elements' rows, rounded to bf16 (the identity on
  extended reals), multiplied with themselves on the matrix unit — contracting the last axis, batching the first —
  into a zero accumulator. Read at an index (b, i, j) the result is the inner product Σ_d xc[b,i,d] · xc[b,j,d] of
  rows i and j of batch element b: the accumulator's zero is the neutral element of +, and the contraction's one-axis
  index set is Fin 256.
-/
import proofs.«121595_j44092134261025_2_alg».proof.Proof.Gen.KernelIdeal.Skeleton
import Idealize.ShloMosaic.PureOps.Ideal
import Idealize.ShloMosaic.PureOps.Ideal.Laws
import Idealize.ShloMosaic.Lib.ValueIdx

noncomputable section

namespace Cert.KernelIdeal.Chunk

open Idealize.ShloMosaic Idealize.ShloMosaic.ValueIdx Cert.KernelIdeal Cert.KernelIdeal.Gen
open scoped BigOperators

/-- The product's dimension numbers: contract axis 2 of both operands, batch axis 0. -/
abbrev D := dot_S16x64x256_S16x64x256_S16x64x64_2_2_1_1_0_0

/-! ### Where the operands are read, at result index j = (b, i, j') and contraction position k -/

theorem lhs0 (j : S16x64x64.Idx) (k : D.contr.Idx) : (D.lhsIdx j k 0 : ℕ) = j 0 := by
  simp [DotDims.lhsIdx, D, dot_S16x64x256_S16x64x256_S16x64x64_2_2_1_1_0_0]; rfl
theorem lhs1 (j : S16x64x64.Idx) (k : D.contr.Idx) : (D.lhsIdx j k 1 : ℕ) = j 1 := by
  simp [DotDims.lhsIdx, D, dot_S16x64x256_S16x64x256_S16x64x64_2_2_1_1_0_0]; rfl
theorem lhs2 (j : S16x64x64.Idx) (k : D.contr.Idx) : (D.lhsIdx j k 2 : ℕ) = k ⟨0, by decide⟩ := by
  simp [DotDims.lhsIdx, D, dot_S16x64x256_S16x64x256_S16x64x64_2_2_1_1_0_0]; rfl
theorem rhs0 (j : S16x64x64.Idx) (k : D.contr.Idx) : (D.rhsIdx j k 0 : ℕ) = j 0 := by
  simp [DotDims.rhsIdx, D, dot_S16x64x256_S16x64x256_S16x64x64_2_2_1_1_0_0]; rfl
theorem rhs1 (j : S16x64x64.Idx) (k : D.contr.Idx) : (D.rhsIdx j k 1 : ℕ) = j 2 := by
  simp [DotDims.rhsIdx, D, dot_S16x64x256_S16x64x256_S16x64x64_2_2_1_1_0_0]; rfl
theorem rhs2 (j : S16x64x64.Idx) (k : D.contr.Idx) : (D.rhsIdx j k 2 : ℕ) = k ⟨0, by decide⟩ := by
  simp [DotDims.rhsIdx, D, dot_S16x64x256_S16x64x256_S16x64x64_2_2_1_1_0_0]; rfl

/-- The contraction's index is its one coordinate, below 256. -/
def cE : D.contr.Idx ≃ Fin 256 := contrEquiv1 D 256 rfl rfl

theorem cE_symm_val (d : Fin 256) : ((cE.symm d) ⟨0, by decide⟩ : ℕ) = d.val :=
  contrEquiv1_symm_val D 256 rfl rfl d

/-- Two rank-3 indices with equal coordinates are equal. -/
theorem ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

/-- A chunk times itself, into the zero accumulator, at (b, i, j): the inner product of rows i and j of element b. -/
theorem gram_chunk (xc : FVec Ideal S16x64x256 .f32) (b : Fin 16) (i j : Fin 64) :
    matmul D none (truncf .bf16 xc bitsLt_bf16_f32) (truncf .bf16 xc bitsLt_bf16_f32)
        (constant S16x64x64 .f32 0x00000000#32) (ix3 b i j)
      = ∑ d : Fin 256, xc (ix3 b i d) * xc (ix3 b j d) := by
  refine (Ideal.matmul_constant_zero_apply D none _ _ (ix3 b i j)).trans ?_
  rw [← Equiv.sum_comp cE.symm]
  refine Finset.sum_congr rfl fun d _ => ?_
  show xc (D.lhsIdx (ix3 b i j) (cE.symm d)) * xc (D.rhsIdx (ix3 b i j) (cE.symm d)) = _
  congr 2
  · exact ext₃ (lhs0 _ _) (lhs1 _ _) ((lhs2 _ _).trans (cE_symm_val d))
  · exact ext₃ (rhs0 _ _) (rhs1 _ _) ((rhs2 _ _).trans (cE_symm_val d))

/-! ### The eight stores' values: each is that product of the chunk it loaded -/

theorem pay1_apply (xc : Vec Ideal S16x64x256 .f32) (b : Fin 16) (i j : Fin 64) :
    k0_pay1 (F := Ideal) xc (ix3 b i j) = ∑ d : Fin 256, xc (ix3 b i d) * xc (ix3 b j d) := gram_chunk xc b i j
theorem pay2_apply (xc : Vec Ideal S16x64x256 .f32) (b : Fin 16) (i j : Fin 64) :
    k0_pay2 (F := Ideal) xc (ix3 b i j) = ∑ d : Fin 256, xc (ix3 b i d) * xc (ix3 b j d) := gram_chunk xc b i j
theorem pay3_apply (xc : Vec Ideal S16x64x256 .f32) (b : Fin 16) (i j : Fin 64) :
    k0_pay3 (F := Ideal) xc (ix3 b i j) = ∑ d : Fin 256, xc (ix3 b i d) * xc (ix3 b j d) := gram_chunk xc b i j
theorem pay4_apply (xc : Vec Ideal S16x64x256 .f32) (b : Fin 16) (i j : Fin 64) :
    k0_pay4 (F := Ideal) xc (ix3 b i j) = ∑ d : Fin 256, xc (ix3 b i d) * xc (ix3 b j d) := gram_chunk xc b i j
theorem pay5_apply (xc : Vec Ideal S16x64x256 .f32) (b : Fin 16) (i j : Fin 64) :
    k0_pay5 (F := Ideal) xc (ix3 b i j) = ∑ d : Fin 256, xc (ix3 b i d) * xc (ix3 b j d) := gram_chunk xc b i j
theorem pay6_apply (xc : Vec Ideal S16x64x256 .f32) (b : Fin 16) (i j : Fin 64) :
    k0_pay6 (F := Ideal) xc (ix3 b i j) = ∑ d : Fin 256, xc (ix3 b i d) * xc (ix3 b j d) := gram_chunk xc b i j
theorem pay7_apply (xc : Vec Ideal S16x64x256 .f32) (b : Fin 16) (i j : Fin 64) :
    k0_pay7 (F := Ideal) xc (ix3 b i j) = ∑ d : Fin 256, xc (ix3 b i d) * xc (ix3 b j d) := gram_chunk xc b i j
theorem pay8_apply (xc : Vec Ideal S16x64x256 .f32) (b : Fin 16) (i j : Fin 64) :
    k0_pay8 (F := Ideal) xc (ix3 b i j) = ∑ d : Fin 256, xc (ix3 b i d) * xc (ix3 b j d) := gram_chunk xc b i j

end Cert.KernelIdeal.Chunk

end
-- ==== Proof.KernelBlock.lean ====
/-
  One grid point of the kernel, over the extended reals: the body cuts its block of 128 batch elements into eight
  chunks of sixteen, and stores each chunk's product with itself into the matching rows of the output block. The
  eight stored slabs tile the output block, and each is the restriction of ONE function of the block's index —
  (r, i, j) ↦ Σ_d x0[r,i,d] · x0[r,j,d] — to its rows, so the block the body leaves is that function.
-/
import proofs.«121595_j44092134261025_2_alg».proof.Proof.Gen.KernelIdeal.Frame
import proofs.«121595_j44092134261025_2_alg».proof.Proof.KernelChunk
import Idealize.ShloMosaic.Lib.Pipeline.Value
import Idealize.ShloMosaic.Lib.Tactic
import Idealize.ShloMosaic.Lib.ValueIdx

noncomputable section

namespace Cert.KernelIdeal.Block

open Idealize.ShloMosaic Idealize.ShloMosaic.TcCoe Idealize.ShloMosaic.ValueIdx Idealize.SL.Sem Cert.KernelIdeal Cert.KernelIdeal.Gen
open Idealize.ShloMosaic.Tactic Cert.KernelIdeal.Chunk
open scoped BigOperators

/-- The Gram entries of one block of 128 batch elements. -/
def gramBlk (x0 : FVec Ideal S128x64x256 .f32) (r : Fin 128) (p q : Fin 64) : EReal :=
  ∑ d : Fin 256, x0 (ix3 r p d) * x0 (ix3 r q d)

/-- The same as one function of the output block's index. -/
def G (x0 : FVec Ideal S128x64x256 .f32) : FVec Ideal S128x64x64 .f32 := fun y => gramBlk x0 (y 0) (y 1) (y 2)

/-- A slab stored at rows o … o+15 whose value is the product, with itself, of the chunk loaded from the same rows
    is the restriction of `G` to those rows: row o + b of the block is row b of the chunk. -/
theorem piece_eq (pay : Vec Ideal S16x64x256 .f32 → FVec Ideal S16x64x64 .f32)
    (hpay : ∀ xc b p q, pay xc (ix3 b p q) = ∑ d : Fin 256, xc (ix3 b p d) * xc (ix3 b q d))
    (x0 : FVec Ideal S128x64x256 .f32) (o : ℕ)
    (h1 : ∀ a, (![o, 0, 0] : Fin 3 → ℕ) a + S16x64x256.size a ≤ S128x64x256.size a)
    (h2 : ∀ a, (![o, 0, 0] : Fin 3 → ℕ) a + S16x64x64.size a ≤ S128x64x64.size a)
    (x : S16x64x64.Idx) :
    pay (View.ld x0 (Rect.unit (s := S128x64x256) ![o, 0, 0] S16x64x256.size h1)) x
      = G x0 ((Rect.unit (s := S128x64x64) ![o, 0, 0] S16x64x64.size h2).emb x) := by
  obtain ⟨b, p, q, rfl⟩ : ∃ b p q, x = ix3 b p q := ⟨x 0, x 1, x 2, eq_ix3 x⟩
  refine (hpay _ b p q).trans ?_
  unfold G gramBlk
  refine Finset.sum_congr rfl fun d _ => ?_
  show x0 ((Rect.unit (s := S128x64x256) ![o, 0, 0] S16x64x256.size h1).idx (ix3 b p d))
      * x0 ((Rect.unit (s := S128x64x256) ![o, 0, 0] S16x64x256.size h1).idx (ix3 b q d)) = _
  congr 2
  · exact ext₃ rfl rfl (by show 0 + 1 * d.val = d.val; omega)
  · exact ext₃ rfl rfl (by show 0 + 1 * d.val = d.val; omega)

/-- What the body leaves in the output's staging buffer, at (r, p, q): the inner product of rows p and q of element r
    of the input block. -/
theorem out_block (c : Dev nD) (i : grid0.Coords) (arg1 : Memref sig .tc .vmem S128x64x256 .f32) (harg1 : arg1.IsWhole)
    (arg2 : Memref sig .tc .vmem S128x64x64 .f32) (harg2 : arg2.IsWhole)
    (x0 : Vec Ideal S128x64x256 .f32) (r : Fin 128) (p q : Fin 64) :
    out0_A_1 (F := Ideal) c i arg1 harg1 arg2 harg2 x0 (ix3 r p q) = gramBlk x0 r p q := by
  unfold out0_A_1
  rw [View.read_writes_eq_canon _ _ _ (cover0_A_1 c i arg1 harg1 arg2 harg2 x0)]
  refine View.canon_apply_of_pieces (G x0) _ ?_ (ix3 r p q) (cover0_A_1 c i arg1 harg1 arg2 harg2 x0 (ix3 r p q))
  unfold kernelRun0_A
  dsimp only
  sl_unfold_words
  simp only [View.readAt_eq_ld, harg1.read_unread]
  simp only [List.forall_mem_cons]
  refine ⟨fun x => piece_eq _ pay1_apply x0 112 _ _ x, fun x => piece_eq _ pay8_apply x0 96 _ _ x,
    fun x => piece_eq _ pay7_apply x0 80 _ _ x, fun x => piece_eq _ pay6_apply x0 64 _ _ x,
    fun x => piece_eq _ pay5_apply x0 48 _ _ x, fun x => piece_eq _ pay4_apply x0 32 _ _ x,
    fun x => piece_eq _ pay3_apply x0 16 _ _ x, fun x => piece_eq _ pay2_apply x0 0 _ _ x, ?_⟩
  intro pc hpc
  exact absurd hpc List.not_mem_nil

end Cert.KernelIdeal.Block

end
-- ==== Proof.Gram.lean ====
/-
  The specification both programs meet, over the extended reals: the batched Gram matrix of the input's rows,
  Z[b, i, j] = Σ_d x[b, i, d] · x[b, j, d], for b < 8192, i, j < 64, d < 256.
  Only commutativity and associativity of + are ever used on it, so no finiteness of the input is needed.
-/
import Idealize.ShloMosaic.PureOps.Ideal
import Idealize.ShloMosaic.Lib.ValueIdx

noncomputable section

namespace Cert.Gram

open Idealize.ShloMosaic Idealize.ShloMosaic.ValueIdx

/-- The inner product of rows `i` and `j` of batch element `b`. -/
def gramAt (x : FVec Ideal ⟨3, ![8192, 64, 256]⟩ .f32) (b : Fin 8192) (i j : Fin 64) : EReal :=
  ∑ d : Fin 256, x (ix3 b i d) * x (ix3 b j d)

/-- The whole Gram array. -/
def gram (x : FVec Ideal ⟨3, ![8192, 64, 256]⟩ .f32) : FVec Ideal ⟨3, ![8192, 64, 64]⟩ .f32 :=
  fun q => gramAt x (q 0) (q 1) (q 2)

theorem gram_ix3 (x : FVec Ideal ⟨3, ![8192, 64, 256]⟩ .f32) (b : Fin 8192) (i j : Fin 64) :
    gram x (ix3 b i j) = gramAt x b i j := rfl

end Cert.Gram

end
-- ==== Proof.TableK.lean ====
/-
  The kernel program's index table, as its host operations compute it from the two literal columns
  (row numbers and column numbers of the strict lower triangle, 2016 pairs): each column has 64 added
  where an entry is negative (none is), is made a [2016, 1] column, and the two are laid side by side.
-/
import proofs.«121595_j44092134261025_2_alg».proof.KernelIdeal
import proofs.«121595_j44092134261025_2_alg».proof.Proof.Gen.KernelIdeal

noncomputable section

namespace Cert.KernelIdeal.Tbl

open Idealize.ShloMosaic Cert.KernelIdeal Cert.KernelIdeal.Facts₀

/-- The literal column of row numbers. -/
def litRows : IVec S2016 32 := fun i => lit0 (S2016.rowMajor i)
/-- The literal column of column numbers. -/
def litCols : IVec S2016 32 := fun i => lit1 (S2016.rowMajor i)

/-- A column with 64 added to its negative entries. -/
def wrap (a : IVec S2016 32) : IVec S2016 32 :=
  select (cmpi .slt a (broadcastInDim S2016 ![] bcast_S_S2016 (constantI S_ 32 0#32)))
    (addi a (broadcastInDim S2016 ![] bcast_S_S2016 (constantI S_ 32 64#32))) a

/-- The [2016, 2] table of (row, column) pairs the kernel program gathers at. -/
def tableK : IVec S2016x2 32 :=
  concatenate S2016x2 1
    [⟨S2016x1, broadcastInDim S2016x1 ![0] bcast_S2016_S2016x1_0 (wrap litRows)⟩,
     ⟨S2016x1, broadcastInDim S2016x1 ![0] bcast_S2016_S2016x1_0 (wrap litCols)⟩]
    concatenates_S2016x1_S2016x1_S2016x2_d1

end Cert.KernelIdeal.Tbl

end
-- ==== Proof.KernelArray.lean ====
/-
  From blocks to the array, over the extended reals. Grid point t reads batch elements 128t … 128t+127 of the input
  and writes the same batch elements of the output, so what it writes back is block t of ONE function of the input
  array, the batched Gram array Z[b,i,j] = Σ_d x[b,i,d] · x[b,j,d]; the 64 blocks tile the output (batch element b
  lies in block b / 128), so the output array ends holding Z. The two literal columns of index pairs are as the
  program's constants wrote them when the region is entered.
-/
import proofs.«121595_j44092134261025_2_alg».proof.Proof.Gen.KernelIdeal.Frame
import proofs.«121595_j44092134261025_2_alg».proof.Proof.KernelBlock
import proofs.«121595_j44092134261025_2_alg».proof.Proof.Gram
import proofs.«121595_j44092134261025_2_alg».proof.Proof.TableK
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.Arr

open Idealize.ShloMosaic Idealize.ShloMosaic.TcCoe Idealize.ShloMosaic.ValueIdx Idealize.SL.Sem Cert.KernelIdeal Cert.KernelIdeal.Gen
open Idealize.ShloMosaic.Tactic Cert.KernelIdeal.Block
open Idealize.ShloMosaic.Pipeline (Dat)
open scoped BigOperators

variable (m : (ℓ : Loc nD τ sig) → Buf (Elt Ideal) ℓ)

/-- The two index maps over the grid: at point t both windows are at block (t, 0, 0). -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input block at point t, at (r, p, d), is the input array at (128t + r, p, d). -/
theorem iblk_apply (c : Dev nD) (t : Fin cfg0.N) (r : Fin 128) (p : Fin 64) (d : Fin 256) (k : S8192x64x256.Idx)
    (hk0 : (k 0).val = 128 * t.val + r.val) (hk1 : (k 1).val = p.val) (hk2 : (k 2).val = d.val) :
    (iblk m c 0 t : Vec Ideal S128x64x256 .f32) (ix3 r p d)
      = (m ((c : Thread nD τ).loc main_arg0) : S8192x64x256.Idx → Elt Ideal .f32) k := by
  obtain ⟨e0, e1, e2, -, -, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 128 + 1 * r.val = (k 0).val; rw [e0, hk0]; omega
  | ⟨1, _⟩ => show win0_0.index t 1 * 64 + 1 * p.val = (k 1).val; rw [e1, hk1]; omega
  | ⟨2, _⟩ => show win0_0.index t 2 * 256 + 1 * d.val = (k 2).val; rw [e2, hk2]; omega

/-- If the block `x0` is rows 128T … of the array `X`, what the body leaves at `y` is the Gram array of `X` at
    the index `z` that sits 128T batch elements further. -/
theorem out_gram (c : Dev nD) (i : grid0.Coords) (arg1 : Memref sig .tc .vmem S128x64x256 .f32) (harg1 : arg1.IsWhole)
    (arg2 : Memref sig .tc .vmem S128x64x64 .f32) (harg2 : arg2.IsWhole) (x0 : Vec Ideal S128x64x256 .f32)
    (X : FVec Ideal ⟨3, ![8192, 64, 256]⟩ .f32) (T : ℕ)
    (hx0 : ∀ (r : Fin 128) (p : Fin 64) (d : Fin 256) (k : S8192x64x256.Idx),
      (k 0).val = 128 * T + r.val → (k 1).val = p.val → (k 2).val = d.val → x0 (ix3 r p d) = X k)
    (y : S128x64x64.Idx) (z : S8192x64x64.Idx)
    (hz0 : (z 0).val = 128 * T + (y 0).val) (hz1 : (z 1).val = (y 1).val) (hz2 : (z 2).val = (y 2).val) :
    out0_A_1 (F := Ideal) c i arg1 harg1 arg2 harg2 x0 y = Cert.Gram.gram X z := by
  obtain ⟨r, p, q, rfl⟩ : ∃ (r : Fin 128) (p q : Fin 64), y = ix3 r p q := ⟨y 0, y 1, y 2, eq_ix3 y⟩
  refine (out_block c i arg1 harg1 arg2 harg2 x0 r p q).trans ?_
  unfold gramBlk Cert.Gram.gram Cert.Gram.gramAt
  refine Finset.sum_congr rfl fun d _ => ?_
  rw [hx0 r p d (ix3 (z 0) (z 1) d) hz0 hz1 rfl, hx0 r q d (ix3 (z 0) (z 2) d) hz0 hz2 rfl]

/-- What point t writes back is block t of the Gram array of the input. -/
theorem flushed_eq (c : Dev nD) (t : Fin cfg0.N) :
    (dats m 0 c).flushed 1 t
      = ((cfg0.win 1).blk t).view.read (Elt Ideal) (Cert.Gram.gram (m ((c : Thread nD τ).loc main_arg0))) := by
  show (cfg0.win 1).cut (grid0.coords t) ((dats m 0 c).after 1 t) = _
  rw [after0_1]
  unfold outsAt0
  obtain ⟨-, -, -, e0, e1, e2⟩ := idx_facts t
  funext y
  rw [View.read_apply]
  refine out_gram c (grid0.coords t) (ms0_0 t) (hs0_0 t) (ms0_1 t) (hs0_1 t) (iblk m c 0 t)
    (m ((c : Thread nD τ).loc main_arg0)) t.val (iblk_apply m c t) y (((cfg0.win 1).blk t).view.emb y) ?_ ?_ ?_
  · show win0_1.index t 0 * 128 + 1 * (y 0).val = _; rw [e0]; omega
  · show win0_1.index t 1 * 64 + 1 * (y 1).val = _; rw [e1]; omega
  · show win0_1.index t 2 * 64 + 1 * (y 2).val = _; rw [e2]; omega

/-- An index of the output array is in point t's block iff each coordinate is in the block's range on its axis. -/
theorem mem_blk (t : Fin cfg0.N) (i : S8192x64x64.Idx) :
    i ∈ ((cfg0.win 1).blk t).view.set ↔ ∀ a : Fin 3, win0_1.index t a * S128x64x64.size a ≤ (i a).val
      ∧ (i a).val < win0_1.index t a * S128x64x64.size a + S128x64x64.size a := by
  show i ∈ ((View.whole main_v0).slice (win0_1.rect t)).set ↔ _
  rw [View.set_slice_whole, Rect.mem_set_unit]
  exact Iff.rfl

/-- Every index of the output array is in the block of the point that its batch element divided by 128 names. -/
theorem cover (i : S8192x64x64.Idx) :
    ∃ t : Fin cfg0.N, (cfg0.win 1).flush t = true ∧ i ∈ ((cfg0.win 1).blk t).view.set := by
  have hN : cfg0.N = 64 := N_0
  have h0 : (i 0).val < 8192 := (i 0).isLt
  have h1 : (i 1).val < 64 := (i 1).isLt
  have h2 : (i 2).val < 64 := (i 2).isLt
  have ht : (i 0).val / 128 < cfg0.N := by rw [hN]; omega
  obtain ⟨-, -, -, e0, e1, e2⟩ := idx_facts ⟨(i 0).val / 128, ht⟩
  refine ⟨⟨(i 0).val / 128, ht⟩, flush0_1 _, ?_⟩
  rw [mem_blk]
  intro a
  match a with
  | ⟨0, _⟩ =>
    show win0_1.index ⟨(i 0).val / 128, ht⟩ 0 * 128 ≤ (i 0).val ∧ (i 0).val < win0_1.index ⟨(i 0).val / 128, ht⟩ 0 * 128 + 128
    rw [e0]; dsimp only; omega
  | ⟨1, _⟩ =>
    show win0_1.index ⟨(i 0).val / 128, ht⟩ 1 * 64 ≤ (i 1).val ∧ (i 1).val < win0_1.index ⟨(i 0).val / 128, ht⟩ 1 * 64 + 64
    rw [e1]; omega
  | ⟨2, _⟩ =>
    show win0_1.index ⟨(i 0).val / 128, ht⟩ 2 * 64 ≤ (i 2).val ∧ (i 2).val < win0_1.index ⟨(i 0).val / 128, ht⟩ 2 * 64 + 64
    rw [e2]; omega

/-- The output array after the region: the Gram array of the input. -/
theorem final (c : Dev nD) :
    (dats m 0 c).arrAt 1 cfg0.N = Cert.Gram.gram (m ((c : Thread nD τ).loc main_arg0)) :=
  (dats m 0 c).arrAt_eq_of_cover 1 (Cert.Gram.gram (m ((c : Thread nD τ).loc main_arg0))) (fun t _ => flushed_eq m c t) cover

/-- When the region is entered the first literal column holds the row numbers, -/
theorem V0_main_c (c : Dev nD) :
    (V0 m c (Proc.devRef .tc main_c) : S2016.Idx → BitVec 32) = Cert.KernelIdeal.Tbl.litRows := by
  show StableHlo.after hostOps0 (fun b => m (c, b)) (Proc.devRef .tc main_c) = _
  after_results
  rfl

/-- and the second the column numbers. -/
theorem V0_main_c_0 (c : Dev nD) :
    (V0 m c (Proc.devRef .tc main_c_0) : S2016.Idx → BitVec 32) = Cert.KernelIdeal.Tbl.litCols := by
  show StableHlo.after hostOps0 (fun b => m (c, b)) (Proc.devRef .tc main_c_0) = _
  after_results
  rfl

end Cert.KernelIdeal.Arr

end
-- ==== Proof.KernelTail.lean ====
/-
  The host operations after the region, over the extended reals: from the output array Z of the region and the two
  literal columns they build the [2016, 2] table of (row, column) pairs — each column with 64 added where negative,
  made a [2016, 1] column, the two laid side by side — and gather Z at it. With Z the Gram array of the input and the
  columns as the program's constants wrote them, the result is the gather of the Gram array at the kernel's table.
-/
import proofs.«121595_j44092134261025_2_alg».proof.Proof.Gen.KernelIdeal.Frame
import proofs.«121595_j44092134261025_2_alg».proof.Proof.KernelArray
import proofs.«121595_j44092134261025_2_alg».proof.Proof.Gram
import proofs.«121595_j44092134261025_2_alg».proof.Proof.TableK
import Idealize.ShloMosaic.Lib.Pipeline.Value
import Idealize.ShloMosaic.Lib.StableHlo.Run
import Idealize.ShloMosaic.Lib.Tactic

noncomputable section

namespace Cert.KernelIdeal.RunValue

open Idealize.ShloMosaic Idealize.ShloMosaic.TcCoe Idealize.SL.Sem Cert.KernelIdeal
open Cert.KernelIdeal.Gen Idealize.ShloMosaic.Tactic
open Idealize.ShloMosaic.Pipeline (Dat)

/-- What the last operation's buffer holds after the operations that follow the region. -/
theorem tail_eq (m : (ℓ : Loc nD τ sig) → Buf (Elt Ideal) ℓ) (c : Dev nD) :
    Pipeline.afterTail₀ cfgs (dats m) 0 (V0 m) [hostOps1] c main_v14
      = Host.gather gather_S8192x64x64_S2016x2_S8192x2016_0_12_n_n_12_1_819211
          (Cert.Gram.gram (m ((c.tc : Thread nD τ).loc main_arg0))) Cert.KernelIdeal.Tbl.tableK := by
  unfold Pipeline.afterTail₀
  show StableHlo.after hostOps1 _ (Proc.devRef .tc main_v14) = _
  -- the region's exit contents at the three buffers the operations read: the output array and the two columns
  have hW0 : Pipeline.withArrays (cfgs 0).spec c (V0 m c) (fun w => (dats m 0 c).arrAt w (cfgs 0).N) (Proc.devRef .tc main_v0)
      = Cert.Gram.gram (m ((c.tc : Thread nD τ).loc main_arg0)) :=
    (Pipeline.withArrays_arr spec0 launch0.win.arr_inj c _ _ 1).trans (Arr.final m c)
  have hWc : Pipeline.withArrays (cfgs 0).spec c (V0 m c) (fun w => (dats m 0 c).arrAt w (cfgs 0).N) (Proc.devRef .tc main_c)
      = Cert.KernelIdeal.Tbl.litRows :=
    (Pipeline.withArrays_of_ne spec0 c _ _ main_c (fun w => by fin_cases w <;> decide)).trans (Arr.V0_main_c m c)
  have hWc0 : Pipeline.withArrays (cfgs 0).spec c (V0 m c) (fun w => (dats m 0 c).arrAt w (cfgs 0).N) (Proc.devRef .tc main_c_0)
      = Cert.KernelIdeal.Tbl.litCols :=
    (Pipeline.withArrays_of_ne spec0 c _ _ main_c_0 (fun w => by fin_cases w <;> decide)).trans (Arr.V0_main_c_0 m c)
  generalize Pipeline.withArrays (cfgs 0).spec c (V0 m c) (fun w => (dats m 0 c).arrAt w (cfgs 0).N) = W at hW0 hWc hWc0 ⊢
  after_results
  rw [hW0, hWc, hWc0]
  rfl

end Cert.KernelIdeal.RunValue

end
-- ==== Proof.KernelRun.lean ====
/-
  The kernel program's run with its result named, over the extended reals: every execution terminates, the result
  buffer ends holding the gather of the input's batched Gram array Z[b,i,j] = Σ_d x[b,i,d] · x[b,j,d] at the program's
  table of index pairs, and the argument array is unchanged.
-/
import proofs.«121595_j44092134261025_2_alg».proof.Proof.Gen.KernelIdeal.Frame
import proofs.«121595_j44092134261025_2_alg».proof.Proof.KernelTail
import proofs.«121595_j44092134261025_2_alg».proof.Proof.Gram
import proofs.«121595_j44092134261025_2_alg».proof.Proof.TableK
import Idealize.ShloMosaic.Lib.Pipeline.Value

noncomputable section

namespace Cert.KernelIdeal.RunValue

open Idealize.ShloMosaic Idealize.ShloMosaic.TcCoe Idealize.SL.Sem Cert.KernelIdeal
open Cert.KernelIdeal.Gen
open Idealize.ShloMosaic.Pipeline (Dat)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
        = Host.gather gather_S8192x64x64_S2016x2_S8192x2016_0_12_n_n_12_1_819211
            (Cert.Gram.gram (m ((c.tc : Thread nD τ).loc main_arg0))) Cert.KernelIdeal.Tbl.tableK
      ∧ r.2.mem ((c.tc : Thread nD τ).loc main_arg0) = m ((c.tc : Thread nD τ).loc main_arg0) :=
  (θ_run defs _ _).mono (fun _ h c =>
      ⟨((h c).2 main_v14 (Pipeline.mem_restRefs_of main_v14 rfl (fun w => by fin_cases w <;> decide))).trans (tail_eq m c),
        ((h c).1 0).trans (((dats m 0 c).arrAt_in 0 rfl _).trans ((A_eq m c 0).trans (V_main_arg0 m c)))⟩)
    (run_main m ρ)

end Cert.KernelIdeal.RunValue

end
-- ==== Proof.RefOps.lean ====
/-
  The reference program as one straight line. Its outlined helper functions (the lower-triangle mask, the two
  running sums, the clip, floor division and remainder with their selects) are executed in place at their call
  sites, each value of a helper's body in the buffer that call names for it, so the whole program is a list of
  136 elementwise, reduction, scatter and gather steps. The list is also cut into ten consecutive pieces, one per
  stage of the index-table computation, so that each stage's value can be read off separately.
-/
import proofs.«121595_j44092134261025_2_alg».proof.ReferenceIdeal
import proofs.«121595_j44092134261025_2_alg».proof.Proof.Gen.ReferenceIdeal
import Idealize.ShloMosaic.Lib.StableHlo.Run

noncomputable section

namespace Cert.ReferenceIdeal.RunValue

open Idealize.ShloMosaic Idealize.ShloMosaic.TcCoe Idealize.SL.Sem Idealize.ShloMosaic.StableHlo
open Cert.ReferenceIdeal Cert.ReferenceIdeal.Facts₀

variable {F : FTy → Type} [FloatOps F]

/-- The program's 136 operations in order, the helper functions' bodies in place of their calls. -/
abbrev ops : List (HloOp τ sig (Elt F)) :=
  [ StableHlo.binary main_arg0 main_arg0 main_v0 ((fun l r => Host.dotGeneral dot_S8192x64x256_S8192x64x256_S8192x64x64_2_2_1_1_0_0 none l r) : (⟨S8192x64x256, .f32⟩ : BufTy).Contents (Elt F) → (⟨S8192x64x256, .f32⟩ : BufTy).Contents (Elt F) → (⟨S8192x64x64, .f32⟩ : BufTy).Contents (Elt F)),
    StableHlo.nullary main_cst (constant S_ .f32 0x3F800000#32),
    StableHlo.unary main_cst main_v1 (broadcastInDim S64x64 ![] bcast_S_S64x64 : (⟨S_, .f32⟩ : BufTy).Contents (Elt F) → (⟨S64x64, .f32⟩ : BufTy).Contents (Elt F)),
    StableHlo.TRef.nullary main_call0.v0 (iotaInDim S64x64 32 0),
    StableHlo.TRef.nullary main_call0.c (constantI S_ 32 4294967295#32),
    StableHlo.TRef.unary main_call0.c main_call0.v1 (broadcastInDim S64x64 ![] bcast_S_S64x64),
    StableHlo.TRef.binary main_call0.v0 main_call0.v1 main_call0.v2 addi,
    StableHlo.TRef.nullary main_call0.v3 (iotaInDim S64x64 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S64x64 ![] bcast_S_S64x64),
    StableHlo.TRef.ternary main_call0.v4 (.of main_v1 : StableHlo.TRef sig ⟨S64x64, .f32⟩) main_call0.v5 main_call0.v6 select,
    StableHlo.nullary main_cst_0 (constant S_ .f32 0x00000000#32),
    StableHlo.unary main_cst_0 main_v3 (broadcastInDim S64x64 ![] bcast_S_S64x64 : (⟨S_, .f32⟩ : BufTy).Contents (Elt F) → (⟨S64x64, .f32⟩ : BufTy).Contents (Elt F)),
    StableHlo.binary main_v2 main_v3 main_v4 (cmpf .une : (⟨S64x64, .f32⟩ : BufTy).Contents (Elt F) → (⟨S64x64, .f32⟩ : BufTy).Contents (Elt F) → (⟨S64x64, .i1⟩ : BufTy).Contents (Elt F)),
    StableHlo.TRef.reshape (.of main_v4 : StableHlo.TRef sig ⟨S64x64, .i1⟩) main_call1.v0 rfl shapeCasts_S64x64_S4096,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![4096] ![1] ![4095] ![0] x v reduceWindows_S4096_S4096_w4096s1p4095_0 h_S_),
    StableHlo.nullary main_c (constantI S_ 32 0#32),
    StableHlo.unary main_c main_v6 (broadcastInDim S2016 ![] bcast_S_S2016 : (⟨S_, .i32⟩ : BufTy).Contents (Elt F) → (⟨S2016, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S4096 ![] bcast_S_S4096),
    StableHlo.TRef.binary main_call2.v1 (.of main_v5 : StableHlo.TRef sig ⟨S4096, .i32⟩) main_call2.v2 maxsi,
    StableHlo.nullary main_c_2 (constantI S_ 32 0#32),
    StableHlo.unary main_c_2 main_v8 (broadcastInDim S4096 ![] bcast_S_S4096 : (⟨S_, .i32⟩ : BufTy).Contents (Elt F) → (⟨S4096, .i32⟩ : BufTy).Contents (Elt F)),
    StableHlo.binary main_v7 main_v8 main_v9 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2016#32),
    StableHlo.unary main_c_3 main_v10 (broadcastInDim S4096 ![] bcast_S_S4096 : (⟨S_, .i32⟩ : BufTy).Contents (Elt F) → (⟨S4096, .i32⟩ : BufTy).Contents (Elt F)),
    StableHlo.binary main_v7 main_v10 main_v11 (addi : (⟨S4096, .i32⟩ : BufTy).Contents (Elt F) → (⟨S4096, .i32⟩ : BufTy).Contents (Elt F) → (⟨S4096, .i32⟩ : BufTy).Contents (Elt F)),
    StableHlo.ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v12 main_v13 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v14 (broadcastInDim S4096 ![] bcast_S_S4096 : (⟨S_, .i32⟩ : BufTy).Contents (Elt F) → (⟨S4096, .i32⟩ : BufTy).Contents (Elt F)),
    StableHlo.ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v15 : StableHlo.TRef sig ⟨S2016, .i32⟩) main_call3.call0.v0 main_call3.call0.v1 (fun x v => Host.reduceWindow IntOp.addi ![2016] ![1] ![2015] ![0] x v reduceWindows_S2016_S2016_w2016s1p2015_0 h_S_),
    StableHlo.nullary main_c_5 (constantI S_ 32 64#32),
    StableHlo.TRef.unary (.of main_c_5 : StableHlo.TRef sig ⟨S_, .i32⟩) main_call4.v0 (broadcastInDim S2016 ![] bcast_S_S2016),
    StableHlo.TRef.binary (.of main_v16 : StableHlo.TRef sig ⟨S2016, .i32⟩) main_call4.v0 main_call4.v1 Host.divsi,
    StableHlo.TRef.unary (.of main_v16 : StableHlo.TRef sig ⟨S2016, .i32⟩) main_call4.v2 signi,
    StableHlo.TRef.unary (.of main_c_5 : StableHlo.TRef sig ⟨S_, .i32⟩) main_call4.v3 signi,
    StableHlo.TRef.unary main_call4.v3 main_call4.v4 (broadcastInDim S2016 ![] bcast_S_S2016),
    StableHlo.TRef.binary main_call4.v2 main_call4.v4 main_call4.v5 (cmpi .ne),
    StableHlo.TRef.unary (.of main_c_5 : StableHlo.TRef sig ⟨S_, .i32⟩) main_call4.v6 (broadcastInDim S2016 ![] bcast_S_S2016),
    StableHlo.TRef.binary (.of main_v16 : StableHlo.TRef sig ⟨S2016, .i32⟩) main_call4.v6 main_call4.v7 Host.remsi,
    StableHlo.TRef.nullary main_call4.c (constantI S_ 32 0#32),
    StableHlo.TRef.unary main_call4.c main_call4.v8 (broadcastInDim S2016 ![] bcast_S_S2016),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S2016 ![] bcast_S_S2016),
    StableHlo.TRef.binary main_call4.v1 main_call4.v11 main_call4.v12 subi,
    StableHlo.TRef.ternary main_call4.v10 main_call4.v12 main_call4.v1 main_call4.call0.v0 select,
    StableHlo.nullary main_c_6 (constantI S_ 32 64#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S2016 ![] bcast_S_S2016),
    StableHlo.TRef.binary (.of main_v17 : StableHlo.TRef sig ⟨S2016, .i32⟩) main_call5.v3 main_call5.v4 Host.remsi,
    StableHlo.TRef.nullary main_call5.c_1 (constantI S_ 32 0#32),
    StableHlo.TRef.unary main_call5.c_1 main_call5.v5 (broadcastInDim S2016 ![] bcast_S_S2016),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S2016 ![] bcast_S_S2016),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S2016 ![] bcast_S_S2016),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S2016 ![] bcast_S_S2016),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (.of main_c_7 : StableHlo.TRef sig ⟨S_, .i32⟩) main_call6.v0 (broadcastInDim S2016 ![] bcast_S_S2016),
    StableHlo.TRef.binary (.of main_v16 : StableHlo.TRef sig ⟨S2016, .i32⟩) main_call6.v0 main_call6.v1 Host.divsi,
    StableHlo.TRef.unary (.of main_v16 : StableHlo.TRef sig ⟨S2016, .i32⟩) main_call6.v2 signi,
    StableHlo.TRef.unary (.of main_c_7 : StableHlo.TRef sig ⟨S_, .i32⟩) main_call6.v3 signi,
    StableHlo.TRef.unary main_call6.v3 main_call6.v4 (broadcastInDim S2016 ![] bcast_S_S2016),
    StableHlo.TRef.binary main_call6.v2 main_call6.v4 main_call6.v5 (cmpi .ne),
    StableHlo.TRef.unary (.of main_c_7 : StableHlo.TRef sig ⟨S_, .i32⟩) main_call6.v6 (broadcastInDim S2016 ![] bcast_S_S2016),
    StableHlo.TRef.binary (.of main_v16 : StableHlo.TRef sig ⟨S2016, .i32⟩) main_call6.v6 main_call6.v7 Host.remsi,
    StableHlo.TRef.nullary main_call6.c (constantI S_ 32 0#32),
    StableHlo.TRef.unary main_call6.c main_call6.v8 (broadcastInDim S2016 ![] bcast_S_S2016),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S2016 ![] bcast_S_S2016),
    StableHlo.TRef.binary main_call6.v1 main_call6.v11 main_call6.v12 subi,
    StableHlo.TRef.ternary main_call6.v10 main_call6.v12 main_call6.v1 main_call6.call0.v0 select,
    StableHlo.nullary main_c_8 (constantI S_ 32 64#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S2016 ![] bcast_S_S2016),
    StableHlo.TRef.binary (.of main_v19 : StableHlo.TRef sig ⟨S2016, .i32⟩) main_call7.v3 main_call7.v4 Host.remsi,
    StableHlo.TRef.nullary main_call7.c_1 (constantI S_ 32 0#32),
    StableHlo.TRef.unary main_call7.c_1 main_call7.v5 (broadcastInDim S2016 ![] bcast_S_S2016),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S2016 ![] bcast_S_S2016),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S2016 ![] bcast_S_S2016),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S2016 ![] bcast_S_S2016),
    StableHlo.TRef.binary main_call7.v4 main_call7.v13 main_call7.v14 addi,
    StableHlo.TRef.ternary main_call7.v12 main_call7.v14 main_call7.v4 main_call7.v15 select,
    StableHlo.nullary main_c_9 (constantI S_ 32 0#32),
    StableHlo.unary main_c_9 main_v21 (broadcastInDim S2016 ![] bcast_S_S2016 : (⟨S_, .i32⟩ : BufTy).Contents (Elt F) → (⟨S2016, .i32⟩ : BufTy).Contents (Elt F)),
    StableHlo.binary main_v18 main_v21 main_v22 (cmpi .slt : (⟨S2016, .i32⟩ : BufTy).Contents (Elt F) → (⟨S2016, .i32⟩ : BufTy).Contents (Elt F) → (⟨S2016, .i1⟩ : BufTy).Contents (Elt F)),
    StableHlo.nullary main_c_10 (constantI S_ 32 64#32),
    StableHlo.unary main_c_10 main_v23 (broadcastInDim S2016 ![] bcast_S_S2016 : (⟨S_, .i32⟩ : BufTy).Contents (Elt F) → (⟨S2016, .i32⟩ : BufTy).Contents (Elt F)),
    StableHlo.binary main_v18 main_v23 main_v24 (addi : (⟨S2016, .i32⟩ : BufTy).Contents (Elt F) → (⟨S2016, .i32⟩ : BufTy).Contents (Elt F) → (⟨S2016, .i32⟩ : BufTy).Contents (Elt F)),
    StableHlo.ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.nullary main_c_11 (constantI S_ 32 0#32),
    StableHlo.unary main_c_11 main_v26 (broadcastInDim S2016 ![] bcast_S_S2016 : (⟨S_, .i32⟩ : BufTy).Contents (Elt F) → (⟨S2016, .i32⟩ : BufTy).Contents (Elt F)),
    StableHlo.binary main_v20 main_v26 main_v27 (cmpi .slt : (⟨S2016, .i32⟩ : BufTy).Contents (Elt F) → (⟨S2016, .i32⟩ : BufTy).Contents (Elt F) → (⟨S2016, .i1⟩ : BufTy).Contents (Elt F)),
    StableHlo.nullary main_c_12 (constantI S_ 32 64#32),
    StableHlo.unary main_c_12 main_v28 (broadcastInDim S2016 ![] bcast_S_S2016 : (⟨S_, .i32⟩ : BufTy).Contents (Elt F) → (⟨S2016, .i32⟩ : BufTy).Contents (Elt F)),
    StableHlo.binary main_v20 main_v28 main_v29 (addi : (⟨S2016, .i32⟩ : BufTy).Contents (Elt F) → (⟨S2016, .i32⟩ : BufTy).Contents (Elt F) → (⟨S2016, .i32⟩ : BufTy).Contents (Elt F)),
    StableHlo.ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.unary main_v25 main_v31 (broadcastInDim S2016x1 ![0] bcast_S2016_S2016x1_0 : (⟨S2016, .i32⟩ : BufTy).Contents (Elt F) → (⟨S2016x1, .i32⟩ : BufTy).Contents (Elt F)),
    StableHlo.unary main_v30 main_v32 (broadcastInDim S2016x1 ![0] bcast_S2016_S2016x1_0 : (⟨S2016, .i32⟩ : BufTy).Contents (Elt F) → (⟨S2016x1, .i32⟩ : BufTy).Contents (Elt F)),
    StableHlo.binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    StableHlo.binary main_v0 main_v33 main_v34 ((fun x i => Host.gather gather_S8192x64x64_S2016x2_S8192x2016_0_12_n_n_12_1_819211 x i) : (⟨S8192x64x64, .f32⟩ : BufTy).Contents (Elt F) → (⟨S2016x2, .i32⟩ : BufTy).Contents (Elt F) → (⟨S8192x2016, .f32⟩ : BufTy).Contents (Elt F)) ]

/-- Operations 0 to 14 of the line. -/
abbrev s1 : List (HloOp τ sig (Elt F)) :=
  [ StableHlo.binary main_arg0 main_arg0 main_v0 ((fun l r => Host.dotGeneral dot_S8192x64x256_S8192x64x256_S8192x64x64_2_2_1_1_0_0 none l r) : (⟨S8192x64x256, .f32⟩ : BufTy).Contents (Elt F) → (⟨S8192x64x256, .f32⟩ : BufTy).Contents (Elt F) → (⟨S8192x64x64, .f32⟩ : BufTy).Contents (Elt F)),
    StableHlo.nullary main_cst (constant S_ .f32 0x3F800000#32),
    StableHlo.unary main_cst main_v1 (broadcastInDim S64x64 ![] bcast_S_S64x64 : (⟨S_, .f32⟩ : BufTy).Contents (Elt F) → (⟨S64x64, .f32⟩ : BufTy).Contents (Elt F)),
    StableHlo.TRef.nullary main_call0.v0 (iotaInDim S64x64 32 0),
    StableHlo.TRef.nullary main_call0.c (constantI S_ 32 4294967295#32),
    StableHlo.TRef.unary main_call0.c main_call0.v1 (broadcastInDim S64x64 ![] bcast_S_S64x64),
    StableHlo.TRef.binary main_call0.v0 main_call0.v1 main_call0.v2 addi,
    StableHlo.TRef.nullary main_call0.v3 (iotaInDim S64x64 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S64x64 ![] bcast_S_S64x64),
    StableHlo.TRef.ternary main_call0.v4 (.of main_v1 : StableHlo.TRef sig ⟨S64x64, .f32⟩) main_call0.v5 main_call0.v6 select,
    StableHlo.nullary main_cst_0 (constant S_ .f32 0x00000000#32),
    StableHlo.unary main_cst_0 main_v3 (broadcastInDim S64x64 ![] bcast_S_S64x64 : (⟨S_, .f32⟩ : BufTy).Contents (Elt F) → (⟨S64x64, .f32⟩ : BufTy).Contents (Elt F)),
    StableHlo.binary main_v2 main_v3 main_v4 (cmpf .une : (⟨S64x64, .f32⟩ : BufTy).Contents (Elt F) → (⟨S64x64, .f32⟩ : BufTy).Contents (Elt F) → (⟨S64x64, .i1⟩ : BufTy).Contents (Elt F)) ]

/-- Operations 15 to 19 of the line. -/
abbrev s2a : List (HloOp τ sig (Elt F)) :=
  [ StableHlo.TRef.reshape (.of main_v4 : StableHlo.TRef sig ⟨S64x64, .i1⟩) main_call1.v0 rfl shapeCasts_S64x64_S4096,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![4096] ![1] ![4095] ![0] x v reduceWindows_S4096_S4096_w4096s1p4095_0 h_S_) ]

/-- Operations 20 to 36 of the line. -/
abbrev s2b : List (HloOp τ sig (Elt F)) :=
  [ StableHlo.nullary main_c (constantI S_ 32 0#32),
    StableHlo.unary main_c main_v6 (broadcastInDim S2016 ![] bcast_S_S2016 : (⟨S_, .i32⟩ : BufTy).Contents (Elt F) → (⟨S2016, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S4096 ![] bcast_S_S4096),
    StableHlo.TRef.binary main_call2.v1 (.of main_v5 : StableHlo.TRef sig ⟨S4096, .i32⟩) main_call2.v2 maxsi,
    StableHlo.nullary main_c_2 (constantI S_ 32 0#32),
    StableHlo.unary main_c_2 main_v8 (broadcastInDim S4096 ![] bcast_S_S4096 : (⟨S_, .i32⟩ : BufTy).Contents (Elt F) → (⟨S4096, .i32⟩ : BufTy).Contents (Elt F)),
    StableHlo.binary main_v7 main_v8 main_v9 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2016#32),
    StableHlo.unary main_c_3 main_v10 (broadcastInDim S4096 ![] bcast_S_S4096 : (⟨S_, .i32⟩ : BufTy).Contents (Elt F) → (⟨S4096, .i32⟩ : BufTy).Contents (Elt F)),
    StableHlo.binary main_v7 main_v10 main_v11 (addi : (⟨S4096, .i32⟩ : BufTy).Contents (Elt F) → (⟨S4096, .i32⟩ : BufTy).Contents (Elt F) → (⟨S4096, .i32⟩ : BufTy).Contents (Elt F)),
    StableHlo.ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v12 main_v13 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v14 (broadcastInDim S4096 ![] bcast_S_S4096 : (⟨S_, .i32⟩ : BufTy).Contents (Elt F) → (⟨S4096, .i32⟩ : BufTy).Contents (Elt F)),
    StableHlo.ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)) ]

/-- Operations 37 to 39 of the line. -/
abbrev s2c : List (HloOp τ sig (Elt F)) :=
  [ StableHlo.TRef.nullary main_call3.call0.c (constantI S_ 32 0#32),
    StableHlo.TRef.unary main_call3.call0.c main_call3.call0.v0 (broadcastInDim S_ ![] bcast_S_S_),
    StableHlo.TRef.binary (.of main_v15 : StableHlo.TRef sig ⟨S2016, .i32⟩) main_call3.call0.v0 main_call3.call0.v1 (fun x v => Host.reduceWindow IntOp.addi ![2016] ![1] ![2015] ![0] x v reduceWindows_S2016_S2016_w2016s1p2015_0 h_S_) ]

/-- Operations 40 to 56 of the line. -/
abbrev s3 : List (HloOp τ sig (Elt F)) :=
  [ StableHlo.nullary main_c_5 (constantI S_ 32 64#32),
    StableHlo.TRef.unary (.of main_c_5 : StableHlo.TRef sig ⟨S_, .i32⟩) main_call4.v0 (broadcastInDim S2016 ![] bcast_S_S2016),
    StableHlo.TRef.binary (.of main_v16 : StableHlo.TRef sig ⟨S2016, .i32⟩) main_call4.v0 main_call4.v1 Host.divsi,
    StableHlo.TRef.unary (.of main_v16 : StableHlo.TRef sig ⟨S2016, .i32⟩) main_call4.v2 signi,
    StableHlo.TRef.unary (.of main_c_5 : StableHlo.TRef sig ⟨S_, .i32⟩) main_call4.v3 signi,
    StableHlo.TRef.unary main_call4.v3 main_call4.v4 (broadcastInDim S2016 ![] bcast_S_S2016),
    StableHlo.TRef.binary main_call4.v2 main_call4.v4 main_call4.v5 (cmpi .ne),
    StableHlo.TRef.unary (.of main_c_5 : StableHlo.TRef sig ⟨S_, .i32⟩) main_call4.v6 (broadcastInDim S2016 ![] bcast_S_S2016),
    StableHlo.TRef.binary (.of main_v16 : StableHlo.TRef sig ⟨S2016, .i32⟩) main_call4.v6 main_call4.v7 Host.remsi,
    StableHlo.TRef.nullary main_call4.c (constantI S_ 32 0#32),
    StableHlo.TRef.unary main_call4.c main_call4.v8 (broadcastInDim S2016 ![] bcast_S_S2016),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S2016 ![] bcast_S_S2016),
    StableHlo.TRef.binary main_call4.v1 main_call4.v11 main_call4.v12 subi,
    StableHlo.TRef.ternary main_call4.v10 main_call4.v12 main_call4.v1 main_call4.call0.v0 select ]

/-- Operations 57 to 78 of the line. -/
abbrev s4 : List (HloOp τ sig (Elt F)) :=
  [ StableHlo.nullary main_c_6 (constantI S_ 32 64#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S2016 ![] bcast_S_S2016),
    StableHlo.TRef.binary (.of main_v17 : StableHlo.TRef sig ⟨S2016, .i32⟩) main_call5.v3 main_call5.v4 Host.remsi,
    StableHlo.TRef.nullary main_call5.c_1 (constantI S_ 32 0#32),
    StableHlo.TRef.unary main_call5.c_1 main_call5.v5 (broadcastInDim S2016 ![] bcast_S_S2016),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S2016 ![] bcast_S_S2016),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S2016 ![] bcast_S_S2016),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S2016 ![] bcast_S_S2016),
    StableHlo.TRef.binary main_call5.v4 main_call5.v13 main_call5.v14 addi,
    StableHlo.TRef.ternary main_call5.v12 main_call5.v14 main_call5.v4 main_call5.v15 select ]

/-- Operations 79 to 95 of the line. -/
abbrev s5 : List (HloOp τ sig (Elt F)) :=
  [ StableHlo.nullary main_c_7 (constantI S_ 32 1#32),
    StableHlo.TRef.unary (.of main_c_7 : StableHlo.TRef sig ⟨S_, .i32⟩) main_call6.v0 (broadcastInDim S2016 ![] bcast_S_S2016),
    StableHlo.TRef.binary (.of main_v16 : StableHlo.TRef sig ⟨S2016, .i32⟩) main_call6.v0 main_call6.v1 Host.divsi,
    StableHlo.TRef.unary (.of main_v16 : StableHlo.TRef sig ⟨S2016, .i32⟩) main_call6.v2 signi,
    StableHlo.TRef.unary (.of main_c_7 : StableHlo.TRef sig ⟨S_, .i32⟩) main_call6.v3 signi,
    StableHlo.TRef.unary main_call6.v3 main_call6.v4 (broadcastInDim S2016 ![] bcast_S_S2016),
    StableHlo.TRef.binary main_call6.v2 main_call6.v4 main_call6.v5 (cmpi .ne),
    StableHlo.TRef.unary (.of main_c_7 : StableHlo.TRef sig ⟨S_, .i32⟩) main_call6.v6 (broadcastInDim S2016 ![] bcast_S_S2016),
    StableHlo.TRef.binary (.of main_v16 : StableHlo.TRef sig ⟨S2016, .i32⟩) main_call6.v6 main_call6.v7 Host.remsi,
    StableHlo.TRef.nullary main_call6.c (constantI S_ 32 0#32),
    StableHlo.TRef.unary main_call6.c main_call6.v8 (broadcastInDim S2016 ![] bcast_S_S2016),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S2016 ![] bcast_S_S2016),
    StableHlo.TRef.binary main_call6.v1 main_call6.v11 main_call6.v12 subi,
    StableHlo.TRef.ternary main_call6.v10 main_call6.v12 main_call6.v1 main_call6.call0.v0 select ]

/-- Operations 96 to 117 of the line. -/
abbrev s6 : List (HloOp τ sig (Elt F)) :=
  [ StableHlo.nullary main_c_8 (constantI S_ 32 64#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S2016 ![] bcast_S_S2016),
    StableHlo.TRef.binary (.of main_v19 : StableHlo.TRef sig ⟨S2016, .i32⟩) main_call7.v3 main_call7.v4 Host.remsi,
    StableHlo.TRef.nullary main_call7.c_1 (constantI S_ 32 0#32),
    StableHlo.TRef.unary main_call7.c_1 main_call7.v5 (broadcastInDim S2016 ![] bcast_S_S2016),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S2016 ![] bcast_S_S2016),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S2016 ![] bcast_S_S2016),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S2016 ![] bcast_S_S2016),
    StableHlo.TRef.binary main_call7.v4 main_call7.v13 main_call7.v14 addi,
    StableHlo.TRef.ternary main_call7.v12 main_call7.v14 main_call7.v4 main_call7.v15 select ]

/-- Operations 118 to 134 of the line. -/
abbrev s7 : List (HloOp τ sig (Elt F)) :=
  [ StableHlo.nullary main_c_9 (constantI S_ 32 0#32),
    StableHlo.unary main_c_9 main_v21 (broadcastInDim S2016 ![] bcast_S_S2016 : (⟨S_, .i32⟩ : BufTy).Contents (Elt F) → (⟨S2016, .i32⟩ : BufTy).Contents (Elt F)),
    StableHlo.binary main_v18 main_v21 main_v22 (cmpi .slt : (⟨S2016, .i32⟩ : BufTy).Contents (Elt F) → (⟨S2016, .i32⟩ : BufTy).Contents (Elt F) → (⟨S2016, .i1⟩ : BufTy).Contents (Elt F)),
    StableHlo.nullary main_c_10 (constantI S_ 32 64#32),
    StableHlo.unary main_c_10 main_v23 (broadcastInDim S2016 ![] bcast_S_S2016 : (⟨S_, .i32⟩ : BufTy).Contents (Elt F) → (⟨S2016, .i32⟩ : BufTy).Contents (Elt F)),
    StableHlo.binary main_v18 main_v23 main_v24 (addi : (⟨S2016, .i32⟩ : BufTy).Contents (Elt F) → (⟨S2016, .i32⟩ : BufTy).Contents (Elt F) → (⟨S2016, .i32⟩ : BufTy).Contents (Elt F)),
    StableHlo.ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.nullary main_c_11 (constantI S_ 32 0#32),
    StableHlo.unary main_c_11 main_v26 (broadcastInDim S2016 ![] bcast_S_S2016 : (⟨S_, .i32⟩ : BufTy).Contents (Elt F) → (⟨S2016, .i32⟩ : BufTy).Contents (Elt F)),
    StableHlo.binary main_v20 main_v26 main_v27 (cmpi .slt : (⟨S2016, .i32⟩ : BufTy).Contents (Elt F) → (⟨S2016, .i32⟩ : BufTy).Contents (Elt F) → (⟨S2016, .i1⟩ : BufTy).Contents (Elt F)),
    StableHlo.nullary main_c_12 (constantI S_ 32 64#32),
    StableHlo.unary main_c_12 main_v28 (broadcastInDim S2016 ![] bcast_S_S2016 : (⟨S_, .i32⟩ : BufTy).Contents (Elt F) → (⟨S2016, .i32⟩ : BufTy).Contents (Elt F)),
    StableHlo.binary main_v20 main_v28 main_v29 (addi : (⟨S2016, .i32⟩ : BufTy).Contents (Elt F) → (⟨S2016, .i32⟩ : BufTy).Contents (Elt F) → (⟨S2016, .i32⟩ : BufTy).Contents (Elt F)),
    StableHlo.ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.unary main_v25 main_v31 (broadcastInDim S2016x1 ![0] bcast_S2016_S2016x1_0 : (⟨S2016, .i32⟩ : BufTy).Contents (Elt F) → (⟨S2016x1, .i32⟩ : BufTy).Contents (Elt F)),
    StableHlo.unary main_v30 main_v32 (broadcastInDim S2016x1 ![0] bcast_S2016_S2016x1_0 : (⟨S2016, .i32⟩ : BufTy).Contents (Elt F) → (⟨S2016x1, .i32⟩ : BufTy).Contents (Elt F)),
    StableHlo.binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)) ]

/-- Operations 135 to 135 of the line. -/
abbrev s8 : List (HloOp τ sig (Elt F)) :=
  [ StableHlo.binary main_v0 main_v33 main_v34 ((fun x i => Host.gather gather_S8192x64x64_S2016x2_S8192x2016_0_12_n_n_12_1_819211 x i) : (⟨S8192x64x64, .f32⟩ : BufTy).Contents (Elt F) → (⟨S2016x2, .i32⟩ : BufTy).Contents (Elt F) → (⟨S8192x2016, .f32⟩ : BufTy).Contents (Elt F)) ]

/-- The line is its ten pieces one after the other. -/
theorem ops_split : (ops : List (HloOp τ sig (Elt F))) = s1 ++ (s2a ++ (s2b ++ (s2c ++ (s3 ++ (s4 ++ (s5 ++ (s6 ++ (s7 ++ (s8))))))))) := rfl

/-- Running two lists of operations one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
/-- The program is that line: the helpers' definitions opened at their calls and the sequencing reassociated. -/
theorem main_eq (c : Dev nD) : main (F := F) c = seq ops := by
  simp only [main, fn_tril.body, fn_cumsum.body, fn_cumsum_0.body, fn_clip.body, fn_cumsum_1.body, fn_cumsum_2.body,
    fn_floor_divide.body, fn_where.body, fn_remainder.body, fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the device only. -/
theorem ops_sub : (ops : List (HloOp τ sig (Elt F))).Forall fun op => op.bufs ⊆ tcRefs τ sig :=
  ⟨binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

set_option maxRecDepth 8192 in
/-- Every execution of the program ends with each buffer at the fold of the line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RunValue

end
-- ==== Proof.RefGram.lean ====
/-
  The reference's first operation is a batched product of the input with itself: batch axis 0 on both
  sides, contraction over axis 2 on both sides. Over the extended reals it is the Gram array:
  entry (b, i, j) is the sum over d of x[b, i, d] · x[b, j, d].
-/
import proofs.«121595_j44092134261025_2_alg».proof.ReferenceIdeal
import proofs.«121595_j44092134261025_2_alg».proof.Proof.Gen.ReferenceIdeal
import proofs.«121595_j44092134261025_2_alg».proof.Proof.Gram
import Idealize.ShloMosaic.PureOps.Ideal.Laws
import Idealize.ShloMosaic.Lib.ValueIdx

noncomputable section

namespace Cert.ReferenceIdeal.RefGram

open Idealize.ShloMosaic Idealize.ShloMosaic.ValueIdx Cert.ReferenceIdeal

variable [Facts₀]

/-- The product's dimension numbers. -/
local notation "DD" => dot_S8192x64x256_S8192x64x256_S8192x64x64_2_2_1_1_0_0

/-- The one contracted axis has 256 positions. -/
abbrev contr256 : (DD).contr.Idx ≃ Fin 256 := contrEquiv1 DD 256 rfl rfl

/-- The left operand is read at (b, i, d): the batch coordinate, the left free coordinate, the contraction position. -/
theorem lhs_at (b : Fin 8192) (i j : Fin 64) (d : Fin 256) :
    (DD).lhsIdx (ix3 b i j) (contr256.symm d) = ix3 b i d := by
  have c3 := contrEquiv1_symm_val DD 256 rfl rfl d
  funext ax; apply Fin.ext
  match ax with
  | ⟨0, _⟩ => simp [DotDims.lhsIdx, dot_S8192x64x256_S8192x64x256_S8192x64x64_2_2_1_1_0_0]; rfl
  | ⟨1, _⟩ => simp [DotDims.lhsIdx, dot_S8192x64x256_S8192x64x256_S8192x64x64_2_2_1_1_0_0]; rfl
  | ⟨2, _⟩ => simp [DotDims.lhsIdx, dot_S8192x64x256_S8192x64x256_S8192x64x64_2_2_1_1_0_0]; exact c3

/-- The right operand is read at (b, j, d): the same batch coordinate, the right free coordinate, the same position. -/
theorem rhs_at (b : Fin 8192) (i j : Fin 64) (d : Fin 256) :
    (DD).rhsIdx (ix3 b i j) (contr256.symm d) = ix3 b j d := by
  have c3 := contrEquiv1_symm_val DD 256 rfl rfl d
  funext ax; apply Fin.ext
  match ax with
  | ⟨0, _⟩ => simp [DotDims.rhsIdx, dot_S8192x64x256_S8192x64x256_S8192x64x64_2_2_1_1_0_0]; rfl
  | ⟨1, _⟩ => simp [DotDims.rhsIdx, dot_S8192x64x256_S8192x64x256_S8192x64x64_2_2_1_1_0_0]; rfl
  | ⟨2, _⟩ => simp [DotDims.rhsIdx, dot_S8192x64x256_S8192x64x256_S8192x64x64_2_2_1_1_0_0]; exact c3

/-- The batched product of the input with itself is its Gram array. -/
theorem dot_eq_gram (x : FVec Ideal S8192x64x256 .f32) :
    Host.dotGeneral DD none x x = Cert.Gram.gram x := by
  funext q
  obtain ⟨b, i, j, rfl⟩ : ∃ (b : Fin 8192) (i j : Fin 64), q = ix3 b i j := ⟨q 0, q 1, q 2, eq_ix3 q⟩
  rw [Cert.Gram.gram_ix3]
  show FloatOps.dotGeneral _ none _ x x (ix3 b i j) = _
  rw [Ideal.dotGeneral_apply, ← Equiv.sum_comp contr256.symm]
  refine Finset.sum_congr rfl fun d _ => ?_
  rw [lhs_at, rhs_at]

end Cert.ReferenceIdeal.RefGram

end
-- ==== Proof.RefCast.lean ====
/-
  A helper function's step is stated over typed references: it moves each operand's contents from the buffer's
  own type to the value's type, and its result back. At a buffer named directly both types are the same and
  the move is the identity; these are the facts that remove the moves from a stage's value.
-/
import proofs.«121595_j44092134261025_2_alg».proof.Proof.RefOps

noncomputable section

namespace Cert.ReferenceIdeal.RunValue

open Idealize.ShloMosaic Idealize.ShloMosaic.TcCoe Idealize.SL.Sem Idealize.ShloMosaic.StableHlo
open Cert.ReferenceIdeal Cert.ReferenceIdeal.Facts₀

variable {F : FTy → Type} [FloatOps F]

/-- Moving contents to a buffer's own type and back is the identity. -/
theorem ofBuf_toBuf {Val : EltTy → Type} {T : BufTy} (x : TRef sig T) (v : T.Contents Val) : x.ofBuf (x.toBuf v) = v := by
  obtain ⟨r, rfl, h1, h2⟩ := x
  rfl

/-- And the other way round. -/
theorem toBuf_ofBuf {Val : EltTy → Type} {T : BufTy} (x : TRef sig T) (v : x.ref.ty.Contents Val) : x.toBuf (x.ofBuf v) = v := by
  obtain ⟨r, rfl, h1, h2⟩ := x
  rfl

/-! At a buffer named directly, whose type is the value's type by computation, each single move is the identity
    (whatever the proofs of the reference's three facts). -/
theorem ofBuf_main_v1 (h1 : main_v1.ty = ⟨S64x64, .f32⟩) (h2 : main_v1.space ≠ .host) (h3 : main_v1.isScoped = false)
    (X : (⟨S64x64, .f32⟩ : BufTy).Contents (Elt F)) : (TRef.of main_v1 h1 h2 h3).ofBuf (Val := Elt F) X = X := rfl
theorem toBuf_main_v1 (h1 : main_v1.ty = ⟨S64x64, .f32⟩) (h2 : main_v1.space ≠ .host) (h3 : main_v1.isScoped = false)
    (X : (⟨S64x64, .f32⟩ : BufTy).Contents (Elt F)) : (TRef.of main_v1 h1 h2 h3).toBuf (Val := Elt F) X = X := rfl
theorem ofBuf_main_v2 (h1 : main_v2.ty = ⟨S64x64, .f32⟩) (h2 : main_v2.space ≠ .host) (h3 : main_v2.isScoped = false)
    (X : (⟨S64x64, .f32⟩ : BufTy).Contents (Elt F)) : (TRef.of main_v2 h1 h2 h3).ofBuf (Val := Elt F) X = X := rfl
theorem toBuf_main_v2 (h1 : main_v2.ty = ⟨S64x64, .f32⟩) (h2 : main_v2.space ≠ .host) (h3 : main_v2.isScoped = false)
    (X : (⟨S64x64, .f32⟩ : BufTy).Contents (Elt F)) : (TRef.of main_v2 h1 h2 h3).toBuf (Val := Elt F) X = X := rfl
theorem ofBuf_main_v4 (h1 : main_v4.ty = ⟨S64x64, .i1⟩) (h2 : main_v4.space ≠ .host) (h3 : main_v4.isScoped = false)
    (X : (⟨S64x64, .i1⟩ : BufTy).Contents (Elt F)) : (TRef.of main_v4 h1 h2 h3).ofBuf (Val := Elt F) X = X := rfl
theorem toBuf_main_v4 (h1 : main_v4.ty = ⟨S64x64, .i1⟩) (h2 : main_v4.space ≠ .host) (h3 : main_v4.isScoped = false)
    (X : (⟨S64x64, .i1⟩ : BufTy).Contents (Elt F)) : (TRef.of main_v4 h1 h2 h3).toBuf (Val := Elt F) X = X := rfl
theorem ofBuf_main_c_1 (h1 : main_c_1.ty = ⟨S_, .i32⟩) (h2 : main_c_1.space ≠ .host) (h3 : main_c_1.isScoped = false)
    (X : (⟨S_, .i32⟩ : BufTy).Contents (Elt F)) : (TRef.of main_c_1 h1 h2 h3).ofBuf (Val := Elt F) X = X := rfl
theorem toBuf_main_c_1 (h1 : main_c_1.ty = ⟨S_, .i32⟩) (h2 : main_c_1.space ≠ .host) (h3 : main_c_1.isScoped = false)
    (X : (⟨S_, .i32⟩ : BufTy).Contents (Elt F)) : (TRef.of main_c_1 h1 h2 h3).toBuf (Val := Elt F) X = X := rfl
theorem ofBuf_main_v5 (h1 : main_v5.ty = ⟨S4096, .i32⟩) (h2 : main_v5.space ≠ .host) (h3 : main_v5.isScoped = false)
    (X : (⟨S4096, .i32⟩ : BufTy).Contents (Elt F)) : (TRef.of main_v5 h1 h2 h3).ofBuf (Val := Elt F) X = X := rfl
theorem toBuf_main_v5 (h1 : main_v5.ty = ⟨S4096, .i32⟩) (h2 : main_v5.space ≠ .host) (h3 : main_v5.isScoped = false)
    (X : (⟨S4096, .i32⟩ : BufTy).Contents (Elt F)) : (TRef.of main_v5 h1 h2 h3).toBuf (Val := Elt F) X = X := rfl
theorem ofBuf_main_v7 (h1 : main_v7.ty = ⟨S4096, .i32⟩) (h2 : main_v7.space ≠ .host) (h3 : main_v7.isScoped = false)
    (X : (⟨S4096, .i32⟩ : BufTy).Contents (Elt F)) : (TRef.of main_v7 h1 h2 h3).ofBuf (Val := Elt F) X = X := rfl
theorem toBuf_main_v7 (h1 : main_v7.ty = ⟨S4096, .i32⟩) (h2 : main_v7.space ≠ .host) (h3 : main_v7.isScoped = false)
    (X : (⟨S4096, .i32⟩ : BufTy).Contents (Elt F)) : (TRef.of main_v7 h1 h2 h3).toBuf (Val := Elt F) X = X := rfl
theorem ofBuf_main_v15 (h1 : main_v15.ty = ⟨S2016, .i32⟩) (h2 : main_v15.space ≠ .host) (h3 : main_v15.isScoped = false)
    (X : (⟨S2016, .i32⟩ : BufTy).Contents (Elt F)) : (TRef.of main_v15 h1 h2 h3).ofBuf (Val := Elt F) X = X := rfl
theorem toBuf_main_v15 (h1 : main_v15.ty = ⟨S2016, .i32⟩) (h2 : main_v15.space ≠ .host) (h3 : main_v15.isScoped = false)
    (X : (⟨S2016, .i32⟩ : BufTy).Contents (Elt F)) : (TRef.of main_v15 h1 h2 h3).toBuf (Val := Elt F) X = X := rfl
theorem ofBuf_main_c_5 (h1 : main_c_5.ty = ⟨S_, .i32⟩) (h2 : main_c_5.space ≠ .host) (h3 : main_c_5.isScoped = false)
    (X : (⟨S_, .i32⟩ : BufTy).Contents (Elt F)) : (TRef.of main_c_5 h1 h2 h3).ofBuf (Val := Elt F) X = X := rfl
theorem toBuf_main_c_5 (h1 : main_c_5.ty = ⟨S_, .i32⟩) (h2 : main_c_5.space ≠ .host) (h3 : main_c_5.isScoped = false)
    (X : (⟨S_, .i32⟩ : BufTy).Contents (Elt F)) : (TRef.of main_c_5 h1 h2 h3).toBuf (Val := Elt F) X = X := rfl
theorem ofBuf_main_v16 (h1 : main_v16.ty = ⟨S2016, .i32⟩) (h2 : main_v16.space ≠ .host) (h3 : main_v16.isScoped = false)
    (X : (⟨S2016, .i32⟩ : BufTy).Contents (Elt F)) : (TRef.of main_v16 h1 h2 h3).ofBuf (Val := Elt F) X = X := rfl
theorem toBuf_main_v16 (h1 : main_v16.ty = ⟨S2016, .i32⟩) (h2 : main_v16.space ≠ .host) (h3 : main_v16.isScoped = false)
    (X : (⟨S2016, .i32⟩ : BufTy).Contents (Elt F)) : (TRef.of main_v16 h1 h2 h3).toBuf (Val := Elt F) X = X := rfl
theorem ofBuf_main_v17 (h1 : main_v17.ty = ⟨S2016, .i32⟩) (h2 : main_v17.space ≠ .host) (h3 : main_v17.isScoped = false)
    (X : (⟨S2016, .i32⟩ : BufTy).Contents (Elt F)) : (TRef.of main_v17 h1 h2 h3).ofBuf (Val := Elt F) X = X := rfl
theorem toBuf_main_v17 (h1 : main_v17.ty = ⟨S2016, .i32⟩) (h2 : main_v17.space ≠ .host) (h3 : main_v17.isScoped = false)
    (X : (⟨S2016, .i32⟩ : BufTy).Contents (Elt F)) : (TRef.of main_v17 h1 h2 h3).toBuf (Val := Elt F) X = X := rfl
theorem ofBuf_main_c_6 (h1 : main_c_6.ty = ⟨S_, .i32⟩) (h2 : main_c_6.space ≠ .host) (h3 : main_c_6.isScoped = false)
    (X : (⟨S_, .i32⟩ : BufTy).Contents (Elt F)) : (TRef.of main_c_6 h1 h2 h3).ofBuf (Val := Elt F) X = X := rfl
theorem toBuf_main_c_6 (h1 : main_c_6.ty = ⟨S_, .i32⟩) (h2 : main_c_6.space ≠ .host) (h3 : main_c_6.isScoped = false)
    (X : (⟨S_, .i32⟩ : BufTy).Contents (Elt F)) : (TRef.of main_c_6 h1 h2 h3).toBuf (Val := Elt F) X = X := rfl
theorem ofBuf_main_v18 (h1 : main_v18.ty = ⟨S2016, .i32⟩) (h2 : main_v18.space ≠ .host) (h3 : main_v18.isScoped = false)
    (X : (⟨S2016, .i32⟩ : BufTy).Contents (Elt F)) : (TRef.of main_v18 h1 h2 h3).ofBuf (Val := Elt F) X = X := rfl
theorem toBuf_main_v18 (h1 : main_v18.ty = ⟨S2016, .i32⟩) (h2 : main_v18.space ≠ .host) (h3 : main_v18.isScoped = false)
    (X : (⟨S2016, .i32⟩ : BufTy).Contents (Elt F)) : (TRef.of main_v18 h1 h2 h3).toBuf (Val := Elt F) X = X := rfl
theorem ofBuf_main_c_7 (h1 : main_c_7.ty = ⟨S_, .i32⟩) (h2 : main_c_7.space ≠ .host) (h3 : main_c_7.isScoped = false)
    (X : (⟨S_, .i32⟩ : BufTy).Contents (Elt F)) : (TRef.of main_c_7 h1 h2 h3).ofBuf (Val := Elt F) X = X := rfl
theorem toBuf_main_c_7 (h1 : main_c_7.ty = ⟨S_, .i32⟩) (h2 : main_c_7.space ≠ .host) (h3 : main_c_7.isScoped = false)
    (X : (⟨S_, .i32⟩ : BufTy).Contents (Elt F)) : (TRef.of main_c_7 h1 h2 h3).toBuf (Val := Elt F) X = X := rfl
theorem ofBuf_main_v19 (h1 : main_v19.ty = ⟨S2016, .i32⟩) (h2 : main_v19.space ≠ .host) (h3 : main_v19.isScoped = false)
    (X : (⟨S2016, .i32⟩ : BufTy).Contents (Elt F)) : (TRef.of main_v19 h1 h2 h3).ofBuf (Val := Elt F) X = X := rfl
theorem toBuf_main_v19 (h1 : main_v19.ty = ⟨S2016, .i32⟩) (h2 : main_v19.space ≠ .host) (h3 : main_v19.isScoped = false)
    (X : (⟨S2016, .i32⟩ : BufTy).Contents (Elt F)) : (TRef.of main_v19 h1 h2 h3).toBuf (Val := Elt F) X = X := rfl
theorem ofBuf_main_c_8 (h1 : main_c_8.ty = ⟨S_, .i32⟩) (h2 : main_c_8.space ≠ .host) (h3 : main_c_8.isScoped = false)
    (X : (⟨S_, .i32⟩ : BufTy).Contents (Elt F)) : (TRef.of main_c_8 h1 h2 h3).ofBuf (Val := Elt F) X = X := rfl
theorem toBuf_main_c_8 (h1 : main_c_8.ty = ⟨S_, .i32⟩) (h2 : main_c_8.space ≠ .host) (h3 : main_c_8.isScoped = false)
    (X : (⟨S_, .i32⟩ : BufTy).Contents (Elt F)) : (TRef.of main_c_8 h1 h2 h3).toBuf (Val := Elt F) X = X := rfl
theorem ofBuf_main_v20 (h1 : main_v20.ty = ⟨S2016, .i32⟩) (h2 : main_v20.space ≠ .host) (h3 : main_v20.isScoped = false)
    (X : (⟨S2016, .i32⟩ : BufTy).Contents (Elt F)) : (TRef.of main_v20 h1 h2 h3).ofBuf (Val := Elt F) X = X := rfl
theorem toBuf_main_v20 (h1 : main_v20.ty = ⟨S2016, .i32⟩) (h2 : main_v20.space ≠ .host) (h3 : main_v20.isScoped = false)
    (X : (⟨S2016, .i32⟩ : BufTy).Contents (Elt F)) : (TRef.of main_v20 h1 h2 h3).toBuf (Val := Elt F) X = X := rfl

end Cert.ReferenceIdeal.RunValue

end
-- ==== Proof.TableR.lean ====
/-
  The reference program's index table, stage by stage, as its host operations compute it.
  It is jnp.tril_indices(64, -1), which jax computes as the positions of the nonzeros of a mask:
    below  : the 64×64 mask of the strict lower triangle, j ≤ i - 1, read off two iotas;
    mask   : the same mask after a round trip through the floats (1.0 where set, compared ≠ 0.0);
    flat   : the mask row-major as 4096 words, 0 or 1;
    cum    : its inclusive running sum, cum[p] = number of set positions ≤ p;
    slot   : cum clipped below at 0 and with 2016 added to negative entries (neither changes it);
    counts : counts[k] = the number of positions p with slot[p] = k, for k < 2016 (a scatter-add of ones;
             positions whose slot is 2016 fall outside and are dropped);
    pos    : the inclusive running sum of counts, pos[k] = the number of positions p with cum[p] ≤ k,
             which is the flat position of the (k+1)-th set entry of the mask;
    rows, cols : pos unravelled over a 64×64 array, (pos div 64) mod 64 and (pos div 1) mod 64, with
             jax's floor-division and sign-corrected remainder;
    tableR : both columns with 64 added to negative entries, made [2016, 1] columns and laid side by side.
-/
import proofs.«121595_j44092134261025_2_alg».proof.ReferenceIdeal
import proofs.«121595_j44092134261025_2_alg».proof.Proof.Gen.ReferenceIdeal
import Idealize.ShloMosaic.PureOps.Ideal

noncomputable section

namespace Cert.ReferenceIdeal.Tbl

open Idealize.ShloMosaic Cert.ReferenceIdeal Cert.ReferenceIdeal.Facts₀

/-- The strict lower triangle as a mask: (row + (-1)) ≥ column, signed. -/
def below : IVec S64x64 1 :=
  cmpi .sge (addi (iotaInDim S64x64 32 0) (broadcastInDim S64x64 ![] bcast_S_S64x64 (constantI S_ 32 4294967295#32)))
    (iotaInDim S64x64 32 1)

/-- All zeros, as floats. -/
def fzeros : FVec Ideal S64x64 .f32 :=
  broadcastInDim S64x64 ![] bcast_S_S64x64 (constant (F := Ideal) S_ .f32 0x00000000#32)

/-- Ones on the strict lower triangle, zeros elsewhere, as floats. -/
def tri : FVec Ideal S64x64 .f32 :=
  select below (broadcastInDim S64x64 ![] bcast_S_S64x64 (constant (F := Ideal) S_ .f32 0x3F800000#32)) fzeros

/-- Where the float triangle is not zero. -/
def mask : IVec S64x64 1 := cmpf .une tri fzeros

/-- The mask row-major, as 32-bit words. -/
def flat : IVec S4096 32 := extui 32 (shapeCast S4096 mask shapeCasts_S64x64_S4096) natLt_1_32

/-- The running sums' initial value, zero. -/
def zero0 : IVec S_ 32 := broadcastInDim S_ ![] bcast_S_S_ (constantI S_ 32 0#32)

/-- The inclusive running sum of the flat mask. -/
def cum : IVec S4096 32 :=
  Host.reduceWindow IntOp.addi ![4096] ![1] ![4095] ![0] flat zero0 reduceWindows_S4096_S4096_w4096s1p4095_0 h_S_

/-- The running sum clipped below at zero. -/
def clipped : IVec S4096 32 := maxsi (broadcastInDim S4096 ![] bcast_S_S4096 (id (constantI S_ 32 0#32))) cum

/-- The clipped running sum with 2016 added to negative entries. -/
def slot : IVec S4096 32 :=
  select (cmpi .slt clipped (broadcastInDim S4096 ![] bcast_S_S4096 (constantI S_ 32 0#32)))
    (addi clipped (broadcastInDim S4096 ![] bcast_S_S4096 (constantI S_ 32 2016#32))) clipped

/-- How many flat positions have each slot value below 2016. -/
def counts : IVec S2016 32 :=
  Host.scatter scatter_S2016_S4096x1_S4096_n_0_0_1 IntOp.addi
    (broadcastInDim S2016 ![] bcast_S_S2016 (constantI S_ 32 0#32))
    (broadcastInDim S4096x1 ![0] bcast_S4096_S4096x1_0 slot)
    (broadcastInDim S4096 ![] bcast_S_S4096 (constantI S_ 32 1#32))

/-- The inclusive running sum of the counts: the flat position of each set entry, in order. -/
def pos : IVec S2016 32 :=
  Host.reduceWindow IntOp.addi ![2016] ![1] ![2015] ![0] counts zero0 reduceWindows_S2016_S2016_w2016s1p2015_0 h_S_

/-- A scalar broadcast over the 2016 entries. -/
abbrev all (d : IVec S_ 32) : IVec S2016 32 := broadcastInDim S2016 ![] bcast_S_S2016 d

/-- jax's floor division of a column by a scalar: the truncated quotient, less one where the signs
    differ and the remainder is not zero. -/
def floorDiv (a : IVec S2016 32) (d : IVec S_ 32) : IVec S2016 32 :=
  select (andi (cmpi .ne (signi a) (all (signi d))) (cmpi .ne (Host.remsi a (all d)) (all (constantI S_ 32 0#32))))
    (subi (Host.divsi a (all d)) (all (constantI S_ 32 1#32))) (Host.divsi a (all d))

/-- The divisor jax's remainder uses: 1 in place of 0. -/
def safeDiv (d : IVec S_ 32) : IVec S_ 32 :=
  select (cmpi .eq (id d) (constantI S_ 32 0#32)) (constantI S_ 32 1#32) (id d)

/-- The truncated remainder of a column by that divisor. -/
def rem0 (a : IVec S2016 32) (d : IVec S_ 32) : IVec S2016 32 := Host.remsi a (all (safeDiv d))

/-- jax's remainder of a column by a scalar: the truncated remainder, plus the divisor where it is
    not zero and its sign differs from the divisor's. -/
def floorRem (a : IVec S2016 32) (d : IVec S_ 32) : IVec S2016 32 :=
  select (andi (cmpi .ne (cmpi .slt (rem0 a d) (all (constantI S_ 32 0#32)))
                  (broadcastInDim S2016 ![] bcast_S_S2016 (cmpi .slt (safeDiv d) (constantI S_ 32 0#32))))
               (cmpi .ne (rem0 a d) (all (constantI S_ 32 0#32))))
    (addi (rem0 a d) (all (safeDiv d))) (rem0 a d)

/-- The row of each set entry: (pos div 64) mod 64. -/
def rows : IVec S2016 32 := floorRem (floorDiv pos (constantI S_ 32 64#32)) (constantI S_ 32 64#32)
/-- The column of each set entry: (pos div 1) mod 64. -/
def cols : IVec S2016 32 := floorRem (floorDiv pos (constantI S_ 32 1#32)) (constantI S_ 32 64#32)

/-- A column with 64 added to its negative entries. -/
def wrap (a : IVec S2016 32) : IVec S2016 32 :=
  select (cmpi .slt a (all (constantI S_ 32 0#32))) (addi a (all (constantI S_ 32 64#32))) a

/-- The [2016, 2] table of (row, column) pairs the reference gathers at. -/
def tableR : IVec S2016x2 32 :=
  concatenate S2016x2 1
    [⟨S2016x1, broadcastInDim S2016x1 ![0] bcast_S2016_S2016x1_0 (wrap rows)⟩,
     ⟨S2016x1, broadcastInDim S2016x1 ![0] bcast_S2016_S2016x1_0 (wrap cols)⟩]
    concatenates_S2016x1_S2016x1_S2016x2_d1

end Cert.ReferenceIdeal.Tbl

end
-- ==== Proof.RefS1.lean ====
/-
  The first piece of the reference's line: the batched product of the input with itself, and the strict
  lower-triangle mask (row + (-1) ≥ column on two iotas, selected between 1.0 and 0.0, compared ≠ 0.0).
-/
import proofs.«121595_j44092134261025_2_alg».proof.Proof.RefCast
import proofs.«121595_j44092134261025_2_alg».proof.Proof.TableR

noncomputable section

namespace Cert.ReferenceIdeal.RunValue

open Idealize.ShloMosaic Idealize.ShloMosaic.TcCoe Idealize.SL.Sem Idealize.ShloMosaic.StableHlo
open Cert.ReferenceIdeal Cert.ReferenceIdeal.Facts₀

variable {F : FTy → Type} [FloatOps F]

/-- A device's buffer contents. -/
local notation "Vals" => Valuation τ sig (Elt F)

/-- The mask's term at any float values: the strict lower triangle selected between 1.0 and 0.0, compared ≠ 0.0. -/
def maskF : IVec S64x64 1 :=
  cmpf (F := F) .une
    (select Tbl.below (broadcastInDim S64x64 ![] bcast_S_S64x64 (constant (F := F) S_ .f32 0x3F800000#32))
      (broadcastInDim S64x64 ![] bcast_S_S64x64 (constant (F := F) S_ .f32 0x00000000#32)))
    (broadcastInDim S64x64 ![] bcast_S_S64x64 (constant (F := F) S_ .f32 0x00000000#32))

/-- At the extended reals it is the table's mask. -/
theorem mask_inst : Tbl.mask = maskF (F := Ideal) := rfl

set_option maxRecDepth 8192 in
set_option maxHeartbeats 400000 in
/-- After the first piece the mask buffer holds the strict lower-triangle mask. -/
theorem s1_v4 (W : Vals) : after (s1 (F := F)) W (main_v4 : DevRef τ sig) = maskF (F := F) := by
  after_results_simp
  simp only [ofBuf_toBuf, toBuf_ofBuf, ofBuf_main_v1, toBuf_main_v1, ofBuf_main_v2, toBuf_main_v2, ofBuf_main_v4, toBuf_main_v4, ofBuf_main_c_1, toBuf_main_c_1, ofBuf_main_v5, toBuf_main_v5, ofBuf_main_v7, toBuf_main_v7, ofBuf_main_v15, toBuf_main_v15, ofBuf_main_c_5, toBuf_main_c_5, ofBuf_main_v16, toBuf_main_v16, ofBuf_main_v17, toBuf_main_v17, ofBuf_main_c_6, toBuf_main_c_6, ofBuf_main_v18, toBuf_main_v18, ofBuf_main_c_7, toBuf_main_c_7, ofBuf_main_v19, toBuf_main_v19, ofBuf_main_c_8, toBuf_main_c_8, ofBuf_main_v20, toBuf_main_v20]
  rfl

set_option maxRecDepth 8192 in
/-- After the first piece the product buffer holds the batched product of the input with itself. -/
theorem s1_v0 (W : Vals) (x : FVec F S8192x64x256 .f32) (hx : W (main_arg0 : DevRef τ sig) = x) :
    after (s1 (F := F)) W (main_v0 : DevRef τ sig)
      = Host.dotGeneral dot_S8192x64x256_S8192x64x256_S8192x64x64_2_2_1_1_0_0 none x x := by
  subst hx
  after_results_simp

set_option maxRecDepth 8192 in
/-- This piece does not write main_arg0. -/
theorem s1_keeps_arg0 (W : Vals) : after (s1 (F := F)) W (main_arg0 : DevRef τ sig) = W (main_arg0 : DevRef τ sig) := by
  after_results_simp

end Cert.ReferenceIdeal.RunValue

end
-- ==== Proof.RefS2a.lean ====
/-
  The second piece: the mask flattened row-major to 4096 words and its inclusive running sum.
-/
import proofs.«121595_j44092134261025_2_alg».proof.Proof.RefCast
import proofs.«121595_j44092134261025_2_alg».proof.Proof.TableR

noncomputable section

namespace Cert.ReferenceIdeal.RunValue

open Idealize.ShloMosaic Idealize.ShloMosaic.TcCoe Idealize.SL.Sem Idealize.ShloMosaic.StableHlo
open Cert.ReferenceIdeal Cert.ReferenceIdeal.Facts₀

variable {F : FTy → Type} [FloatOps F]

/-- A device's buffer contents. -/
local notation "Vals" => Valuation τ sig (Elt F)

attribute [local irreducible] constant constantI iotaInDim broadcastInDim cmpf cmpi addi subi andi select maxsi signi extui shapeCast concatenate Host.divsi Host.remsi Host.reduceWindow Host.scatter Host.gather in
set_option maxRecDepth 8192 in
set_option maxHeartbeats 400000 in
/-- From the mask, the running sum of its 4096 flattened entries. -/
theorem s2a_v5 (W : Vals) (h : W (main_v4 : DevRef τ sig) = Tbl.mask) :
    after (s2a (F := F)) W (main_v5 : DevRef τ sig) = Tbl.cum := by
  after_results_simp
  simp only [ofBuf_toBuf, toBuf_ofBuf, ofBuf_main_v1, toBuf_main_v1, ofBuf_main_v2, toBuf_main_v2, ofBuf_main_v4, toBuf_main_v4, ofBuf_main_c_1, toBuf_main_c_1, ofBuf_main_v5, toBuf_main_v5, ofBuf_main_v7, toBuf_main_v7, ofBuf_main_v15, toBuf_main_v15, ofBuf_main_c_5, toBuf_main_c_5, ofBuf_main_v16, toBuf_main_v16, ofBuf_main_v17, toBuf_main_v17, ofBuf_main_c_6, toBuf_main_c_6, ofBuf_main_v18, toBuf_main_v18, ofBuf_main_c_7, toBuf_main_c_7, ofBuf_main_v19, toBuf_main_v19, ofBuf_main_c_8, toBuf_main_c_8, ofBuf_main_v20, toBuf_main_v20, h]
  rfl

set_option maxRecDepth 8192 in
/-- This piece does not write main_v0. -/
theorem s2a_keeps_v0 (W : Vals) : after (s2a (F := F)) W (main_v0 : DevRef τ sig) = W (main_v0 : DevRef τ sig) := by
  after_results_simp

set_option maxRecDepth 8192 in
/-- This piece does not write main_arg0. -/
theorem s2a_keeps_arg0 (W : Vals) : after (s2a (F := F)) W (main_arg0 : DevRef τ sig) = W (main_arg0 : DevRef τ sig) := by
  after_results_simp

end Cert.ReferenceIdeal.RunValue

end
-- ==== Proof.RefS2b.lean ====
/-
  The third piece: the running sum clipped at zero, wrapped by 2016 where negative, and the scatter-add of ones
  that counts how many flat positions carry each value below 2016.
-/
import proofs.«121595_j44092134261025_2_alg».proof.Proof.RefCast
import proofs.«121595_j44092134261025_2_alg».proof.Proof.TableR

noncomputable section

namespace Cert.ReferenceIdeal.RunValue

open Idealize.ShloMosaic Idealize.ShloMosaic.TcCoe Idealize.SL.Sem Idealize.ShloMosaic.StableHlo
open Cert.ReferenceIdeal Cert.ReferenceIdeal.Facts₀

variable {F : FTy → Type} [FloatOps F]

/-- A device's buffer contents. -/
local notation "Vals" => Valuation τ sig (Elt F)

attribute [local irreducible] constant constantI iotaInDim broadcastInDim cmpf cmpi addi subi andi select maxsi signi extui shapeCast concatenate Host.divsi Host.remsi Host.reduceWindow Host.scatter Host.gather in
set_option maxRecDepth 8192 in
set_option maxHeartbeats 400000 in
/-- From the running sum, the count of positions per slot. -/
theorem s2b_v15 (W : Vals) (h : W (main_v5 : DevRef τ sig) = Tbl.cum) :
    after (s2b (F := F)) W (main_v15 : DevRef τ sig) = Tbl.counts := by
  after_results_simp
  simp only [ofBuf_toBuf, toBuf_ofBuf, ofBuf_main_v1, toBuf_main_v1, ofBuf_main_v2, toBuf_main_v2, ofBuf_main_v4, toBuf_main_v4, ofBuf_main_c_1, toBuf_main_c_1, ofBuf_main_v5, toBuf_main_v5, ofBuf_main_v7, toBuf_main_v7, ofBuf_main_v15, toBuf_main_v15, ofBuf_main_c_5, toBuf_main_c_5, ofBuf_main_v16, toBuf_main_v16, ofBuf_main_v17, toBuf_main_v17, ofBuf_main_c_6, toBuf_main_c_6, ofBuf_main_v18, toBuf_main_v18, ofBuf_main_c_7, toBuf_main_c_7, ofBuf_main_v19, toBuf_main_v19, ofBuf_main_c_8, toBuf_main_c_8, ofBuf_main_v20, toBuf_main_v20, h]
  rfl

set_option maxRecDepth 8192 in
/-- This piece does not write main_v0. -/
theorem s2b_keeps_v0 (W : Vals) : after (s2b (F := F)) W (main_v0 : DevRef τ sig) = W (main_v0 : DevRef τ sig) := by
  after_results_simp

set_option maxRecDepth 8192 in
/-- This piece does not write main_arg0. -/
theorem s2b_keeps_arg0 (W : Vals) : after (s2b (F := F)) W (main_arg0 : DevRef τ sig) = W (main_arg0 : DevRef τ sig) := by
  after_results_simp

end Cert.ReferenceIdeal.RunValue

end
-- ==== Proof.RefS2c.lean ====
/-
  The fourth piece: the inclusive running sum of the counts, the flat position of each set entry in order.
-/
import proofs.«121595_j44092134261025_2_alg».proof.Proof.RefCast
import proofs.«121595_j44092134261025_2_alg».proof.Proof.TableR

noncomputable section

namespace Cert.ReferenceIdeal.RunValue

open Idealize.ShloMosaic Idealize.ShloMosaic.TcCoe Idealize.SL.Sem Idealize.ShloMosaic.StableHlo
open Cert.ReferenceIdeal Cert.ReferenceIdeal.Facts₀

variable {F : FTy → Type} [FloatOps F]

/-- A device's buffer contents. -/
local notation "Vals" => Valuation τ sig (Elt F)

attribute [local irreducible] constant constantI iotaInDim broadcastInDim cmpf cmpi addi subi andi select maxsi signi extui shapeCast concatenate Host.divsi Host.remsi Host.reduceWindow Host.scatter Host.gather in
set_option maxRecDepth 8192 in
set_option maxHeartbeats 400000 in
/-- From the counts, their running sum. -/
theorem s2c_v16 (W : Vals) (h : W (main_v15 : DevRef τ sig) = Tbl.counts) :
    after (s2c (F := F)) W (main_v16 : DevRef τ sig) = Tbl.pos := by
  after_results_simp
  simp only [ofBuf_toBuf, toBuf_ofBuf, ofBuf_main_v1, toBuf_main_v1, ofBuf_main_v2, toBuf_main_v2, ofBuf_main_v4, toBuf_main_v4, ofBuf_main_c_1, toBuf_main_c_1, ofBuf_main_v5, toBuf_main_v5, ofBuf_main_v7, toBuf_main_v7, ofBuf_main_v15, toBuf_main_v15, ofBuf_main_c_5, toBuf_main_c_5, ofBuf_main_v16, toBuf_main_v16, ofBuf_main_v17, toBuf_main_v17, ofBuf_main_c_6, toBuf_main_c_6, ofBuf_main_v18, toBuf_main_v18, ofBuf_main_c_7, toBuf_main_c_7, ofBuf_main_v19, toBuf_main_v19, ofBuf_main_c_8, toBuf_main_c_8, ofBuf_main_v20, toBuf_main_v20, h]
  rfl

set_option maxRecDepth 8192 in
/-- This piece does not write main_v0. -/
theorem s2c_keeps_v0 (W : Vals) : after (s2c (F := F)) W (main_v0 : DevRef τ sig) = W (main_v0 : DevRef τ sig) := by
  after_results_simp

set_option maxRecDepth 8192 in
/-- This piece does not write main_arg0. -/
theorem s2c_keeps_arg0 (W : Vals) : after (s2c (F := F)) W (main_arg0 : DevRef τ sig) = W (main_arg0 : DevRef τ sig) := by
  after_results_simp

end Cert.ReferenceIdeal.RunValue

end
-- ==== Proof.RefS3.lean ====
/-
  The fifth piece: floor division of the positions by 64.
-/
import proofs.«121595_j44092134261025_2_alg».proof.Proof.RefCast
import proofs.«121595_j44092134261025_2_alg».proof.Proof.TableR

noncomputable section

namespace Cert.ReferenceIdeal.RunValue

open Idealize.ShloMosaic Idealize.ShloMosaic.TcCoe Idealize.SL.Sem Idealize.ShloMosaic.StableHlo
open Cert.ReferenceIdeal Cert.ReferenceIdeal.Facts₀

variable {F : FTy → Type} [FloatOps F]

/-- A device's buffer contents. -/
local notation "Vals" => Valuation τ sig (Elt F)

attribute [local irreducible] constant constantI iotaInDim broadcastInDim cmpf cmpi addi subi andi select maxsi signi extui shapeCast concatenate Host.divsi Host.remsi Host.reduceWindow Host.scatter Host.gather in
set_option maxRecDepth 8192 in
set_option maxHeartbeats 400000 in
/-- From the positions, their floor quotient by 64. -/
theorem s3_v17 (W : Vals) (h : W (main_v16 : DevRef τ sig) = Tbl.pos) :
    after (s3 (F := F)) W (main_v17 : DevRef τ sig) = Tbl.floorDiv Tbl.pos (constantI S_ 32 64#32) := by
  after_results_simp
  simp only [ofBuf_toBuf, toBuf_ofBuf, ofBuf_main_v1, toBuf_main_v1, ofBuf_main_v2, toBuf_main_v2, ofBuf_main_v4, toBuf_main_v4, ofBuf_main_c_1, toBuf_main_c_1, ofBuf_main_v5, toBuf_main_v5, ofBuf_main_v7, toBuf_main_v7, ofBuf_main_v15, toBuf_main_v15, ofBuf_main_c_5, toBuf_main_c_5, ofBuf_main_v16, toBuf_main_v16, ofBuf_main_v17, toBuf_main_v17, ofBuf_main_c_6, toBuf_main_c_6, ofBuf_main_v18, toBuf_main_v18, ofBuf_main_c_7, toBuf_main_c_7, ofBuf_main_v19, toBuf_main_v19, ofBuf_main_c_8, toBuf_main_c_8, ofBuf_main_v20, toBuf_main_v20, h]
  rfl

set_option maxRecDepth 8192 in
/-- This piece does not write main_v16. -/
theorem s3_keeps_v16 (W : Vals) : after (s3 (F := F)) W (main_v16 : DevRef τ sig) = W (main_v16 : DevRef τ sig) := by
  after_results_simp

set_option maxRecDepth 8192 in
/-- This piece does not write main_v0. -/
theorem s3_keeps_v0 (W : Vals) : after (s3 (F := F)) W (main_v0 : DevRef τ sig) = W (main_v0 : DevRef τ sig) := by
  after_results_simp

set_option maxRecDepth 8192 in
/-- This piece does not write main_arg0. -/
theorem s3_keeps_arg0 (W : Vals) : after (s3 (F := F)) W (main_arg0 : DevRef τ sig) = W (main_arg0 : DevRef τ sig) := by
  after_results_simp

end Cert.ReferenceIdeal.RunValue

end
-- ==== Proof.RefS4.lean ====
/-
  The sixth piece: the remainder modulo 64 of the quotients, the row of each set entry.
-/
import proofs.«121595_j44092134261025_2_alg».proof.Proof.RefCast
import proofs.«121595_j44092134261025_2_alg».proof.Proof.TableR

noncomputable section

namespace Cert.ReferenceIdeal.RunValue

open Idealize.ShloMosaic Idealize.ShloMosaic.TcCoe Idealize.SL.Sem Idealize.ShloMosaic.StableHlo
open Cert.ReferenceIdeal Cert.ReferenceIdeal.Facts₀

variable {F : FTy → Type} [FloatOps F]

/-- A device's buffer contents. -/
local notation "Vals" => Valuation τ sig (Elt F)

attribute [local irreducible] constant constantI iotaInDim broadcastInDim cmpf cmpi addi subi andi select maxsi signi extui shapeCast concatenate Host.divsi Host.remsi Host.reduceWindow Host.scatter Host.gather in
set_option maxRecDepth 8192 in
set_option maxHeartbeats 400000 in
/-- From the quotients by 64, the rows. -/
theorem s4_v18 (W : Vals) (h : W (main_v17 : DevRef τ sig) = Tbl.floorDiv Tbl.pos (constantI S_ 32 64#32)) :
    after (s4 (F := F)) W (main_v18 : DevRef τ sig) = Tbl.rows := by
  after_results_simp
  simp only [ofBuf_toBuf, toBuf_ofBuf, ofBuf_main_v1, toBuf_main_v1, ofBuf_main_v2, toBuf_main_v2, ofBuf_main_v4, toBuf_main_v4, ofBuf_main_c_1, toBuf_main_c_1, ofBuf_main_v5, toBuf_main_v5, ofBuf_main_v7, toBuf_main_v7, ofBuf_main_v15, toBuf_main_v15, ofBuf_main_c_5, toBuf_main_c_5, ofBuf_main_v16, toBuf_main_v16, ofBuf_main_v17, toBuf_main_v17, ofBuf_main_c_6, toBuf_main_c_6, ofBuf_main_v18, toBuf_main_v18, ofBuf_main_c_7, toBuf_main_c_7, ofBuf_main_v19, toBuf_main_v19, ofBuf_main_c_8, toBuf_main_c_8, ofBuf_main_v20, toBuf_main_v20, h]
  rfl

set_option maxRecDepth 8192 in
/-- This piece does not write main_v16. -/
theorem s4_keeps_v16 (W : Vals) : after (s4 (F := F)) W (main_v16 : DevRef τ sig) = W (main_v16 : DevRef τ sig) := by
  after_results_simp

set_option maxRecDepth 8192 in
/-- This piece does not write main_v0. -/
theorem s4_keeps_v0 (W : Vals) : after (s4 (F := F)) W (main_v0 : DevRef τ sig) = W (main_v0 : DevRef τ sig) := by
  after_results_simp

set_option maxRecDepth 8192 in
/-- This piece does not write main_arg0. -/
theorem s4_keeps_arg0 (W : Vals) : after (s4 (F := F)) W (main_arg0 : DevRef τ sig) = W (main_arg0 : DevRef τ sig) := by
  after_results_simp

end Cert.ReferenceIdeal.RunValue

end
-- ==== Proof.RefS5.lean ====
/-
  The seventh piece: floor division of the positions by 1.
-/
import proofs.«121595_j44092134261025_2_alg».proof.Proof.RefCast
import proofs.«121595_j44092134261025_2_alg».proof.Proof.TableR

noncomputable section

namespace Cert.ReferenceIdeal.RunValue

open Idealize.ShloMosaic Idealize.ShloMosaic.TcCoe Idealize.SL.Sem Idealize.ShloMosaic.StableHlo
open Cert.ReferenceIdeal Cert.ReferenceIdeal.Facts₀

variable {F : FTy → Type} [FloatOps F]

/-- A device's buffer contents. -/
local notation "Vals" => Valuation τ sig (Elt F)

attribute [local irreducible] constant constantI iotaInDim broadcastInDim cmpf cmpi addi subi andi select maxsi signi extui shapeCast concatenate Host.divsi Host.remsi Host.reduceWindow Host.scatter Host.gather in
set_option maxRecDepth 8192 in
set_option maxHeartbeats 400000 in
/-- From the positions, their floor quotient by 1. -/
theorem s5_v19 (W : Vals) (h : W (main_v16 : DevRef τ sig) = Tbl.pos) :
    after (s5 (F := F)) W (main_v19 : DevRef τ sig) = Tbl.floorDiv Tbl.pos (constantI S_ 32 1#32) := by
  after_results_simp
  simp only [ofBuf_toBuf, toBuf_ofBuf, ofBuf_main_v1, toBuf_main_v1, ofBuf_main_v2, toBuf_main_v2, ofBuf_main_v4, toBuf_main_v4, ofBuf_main_c_1, toBuf_main_c_1, ofBuf_main_v5, toBuf_main_v5, ofBuf_main_v7, toBuf_main_v7, ofBuf_main_v15, toBuf_main_v15, ofBuf_main_c_5, toBuf_main_c_5, ofBuf_main_v16, toBuf_main_v16, ofBuf_main_v17, toBuf_main_v17, ofBuf_main_c_6, toBuf_main_c_6, ofBuf_main_v18, toBuf_main_v18, ofBuf_main_c_7, toBuf_main_c_7, ofBuf_main_v19, toBuf_main_v19, ofBuf_main_c_8, toBuf_main_c_8, ofBuf_main_v20, toBuf_main_v20, h]
  rfl

set_option maxRecDepth 8192 in
/-- This piece does not write main_v18. -/
theorem s5_keeps_v18 (W : Vals) : after (s5 (F := F)) W (main_v18 : DevRef τ sig) = W (main_v18 : DevRef τ sig) := by
  after_results_simp

set_option maxRecDepth 8192 in
/-- This piece does not write main_v0. -/
theorem s5_keeps_v0 (W : Vals) : after (s5 (F := F)) W (main_v0 : DevRef τ sig) = W (main_v0 : DevRef τ sig) := by
  after_results_simp

set_option maxRecDepth 8192 in
/-- This piece does not write main_arg0. -/
theorem s5_keeps_arg0 (W : Vals) : after (s5 (F := F)) W (main_arg0 : DevRef τ sig) = W (main_arg0 : DevRef τ sig) := by
  after_results_simp

end Cert.ReferenceIdeal.RunValue

end
-- ==== Proof.RefS6.lean ====
/-
  The eighth piece: the remainder modulo 64 of the quotients by 1, the column of each set entry.
-/
import proofs.«121595_j44092134261025_2_alg».proof.Proof.RefCast
import proofs.«121595_j44092134261025_2_alg».proof.Proof.TableR

noncomputable section

namespace Cert.ReferenceIdeal.RunValue

open Idealize.ShloMosaic Idealize.ShloMosaic.TcCoe Idealize.SL.Sem Idealize.ShloMosaic.StableHlo
open Cert.ReferenceIdeal Cert.ReferenceIdeal.Facts₀

variable {F : FTy → Type} [FloatOps F]

/-- A device's buffer contents. -/
local notation "Vals" => Valuation τ sig (Elt F)

attribute [local irreducible] constant constantI iotaInDim broadcastInDim cmpf cmpi addi subi andi select maxsi signi extui shapeCast concatenate Host.divsi Host.remsi Host.reduceWindow Host.scatter Host.gather in
set_option maxRecDepth 8192 in
set_option maxHeartbeats 400000 in
/-- From the quotients by 1, the columns. -/
theorem s6_v20 (W : Vals) (h : W (main_v19 : DevRef τ sig) = Tbl.floorDiv Tbl.pos (constantI S_ 32 1#32)) :
    after (s6 (F := F)) W (main_v20 : DevRef τ sig) = Tbl.cols := by
  after_results_simp
  simp only [ofBuf_toBuf, toBuf_ofBuf, ofBuf_main_v1, toBuf_main_v1, ofBuf_main_v2, toBuf_main_v2, ofBuf_main_v4, toBuf_main_v4, ofBuf_main_c_1, toBuf_main_c_1, ofBuf_main_v5, toBuf_main_v5, ofBuf_main_v7, toBuf_main_v7, ofBuf_main_v15, toBuf_main_v15, ofBuf_main_c_5, toBuf_main_c_5, ofBuf_main_v16, toBuf_main_v16, ofBuf_main_v17, toBuf_main_v17, ofBuf_main_c_6, toBuf_main_c_6, ofBuf_main_v18, toBuf_main_v18, ofBuf_main_c_7, toBuf_main_c_7, ofBuf_main_v19, toBuf_main_v19, ofBuf_main_c_8, toBuf_main_c_8, ofBuf_main_v20, toBuf_main_v20, h]
  rfl

set_option maxRecDepth 8192 in
/-- This piece does not write main_v18. -/
theorem s6_keeps_v18 (W : Vals) : after (s6 (F := F)) W (main_v18 : DevRef τ sig) = W (main_v18 : DevRef τ sig) := by
  after_results_simp

set_option maxRecDepth 8192 in
/-- This piece does not write main_v0. -/
theorem s6_keeps_v0 (W : Vals) : after (s6 (F := F)) W (main_v0 : DevRef τ sig) = W (main_v0 : DevRef τ sig) := by
  after_results_simp

set_option maxRecDepth 8192 in
/-- This piece does not write main_arg0. -/
theorem s6_keeps_arg0 (W : Vals) : after (s6 (F := F)) W (main_arg0 : DevRef τ sig) = W (main_arg0 : DevRef τ sig) := by
  after_results_simp

end Cert.ReferenceIdeal.RunValue

end
-- ==== Proof.RefS7.lean ====
/-
  The ninth piece: both columns with 64 added to their negative entries, made [2016, 1] and laid side by side.
-/
import proofs.«121595_j44092134261025_2_alg».proof.Proof.RefCast
import proofs.«121595_j44092134261025_2_alg».proof.Proof.TableR

noncomputable section

namespace Cert.ReferenceIdeal.RunValue

open Idealize.ShloMosaic Idealize.ShloMosaic.TcCoe Idealize.SL.Sem Idealize.ShloMosaic.StableHlo
open Cert.ReferenceIdeal Cert.ReferenceIdeal.Facts₀

variable {F : FTy → Type} [FloatOps F]

/-- A device's buffer contents. -/
local notation "Vals" => Valuation τ sig (Elt F)

attribute [local irreducible] constant constantI iotaInDim broadcastInDim cmpf cmpi addi subi andi select maxsi signi extui shapeCast concatenate Host.divsi Host.remsi Host.reduceWindow Host.scatter Host.gather in
set_option maxRecDepth 8192 in
set_option maxHeartbeats 400000 in
/-- From the rows and columns, the index table: the two [2016, 1] columns are compared one at a time. -/
theorem s7_v33 (W : Vals) (h18 : W (main_v18 : DevRef τ sig) = Tbl.rows) (h20 : W (main_v20 : DevRef τ sig) = Tbl.cols) :
    after (s7 (F := F)) W (main_v33 : DevRef τ sig) = Tbl.tableR := by
  after_results_simp
  refine congrArg₂ (fun (a b : IVec S2016x1 32) =>
    concatenate S2016x2 1 [⟨S2016x1, a⟩, ⟨S2016x1, b⟩] concatenates_S2016x1_S2016x1_S2016x2_d1) ?_ ?_
  · after_results_simp
    simp only [h18]
    rfl
  · after_results_simp
    simp only [h20]
    rfl

set_option maxRecDepth 8192 in
/-- This piece does not write main_v0. -/
theorem s7_keeps_v0 (W : Vals) : after (s7 (F := F)) W (main_v0 : DevRef τ sig) = W (main_v0 : DevRef τ sig) := by
  after_results_simp

set_option maxRecDepth 8192 in
/-- This piece does not write main_arg0. -/
theorem s7_keeps_arg0 (W : Vals) : after (s7 (F := F)) W (main_arg0 : DevRef τ sig) = W (main_arg0 : DevRef τ sig) := by
  after_results_simp

end Cert.ReferenceIdeal.RunValue

end
-- ==== Proof.RefS8.lean ====
/-
  The last piece: the gather of the product at the index table.
-/
import proofs.«121595_j44092134261025_2_alg».proof.Proof.RefCast
import proofs.«121595_j44092134261025_2_alg».proof.Proof.TableR

noncomputable section

namespace Cert.ReferenceIdeal.RunValue

open Idealize.ShloMosaic Idealize.ShloMosaic.TcCoe Idealize.SL.Sem Idealize.ShloMosaic.StableHlo
open Cert.ReferenceIdeal Cert.ReferenceIdeal.Facts₀

variable {F : FTy → Type} [FloatOps F]

/-- A device's buffer contents. -/
local notation "Vals" => Valuation τ sig (Elt F)

attribute [local irreducible] constant constantI iotaInDim broadcastInDim cmpf cmpi addi subi andi select maxsi signi extui shapeCast concatenate Host.divsi Host.remsi Host.reduceWindow Host.scatter Host.gather in
set_option maxRecDepth 8192 in
set_option maxHeartbeats 400000 in
/-- From the product and the index table, the gathered entries. -/
theorem s8_v34 (W : Vals) (g : FVec F S8192x64x64 .f32) (h0 : W (main_v0 : DevRef τ sig) = g)
    (h33 : W (main_v33 : DevRef τ sig) = Tbl.tableR) :
    after (s8 (F := F)) W (main_v34 : DevRef τ sig)
      = Host.gather gather_S8192x64x64_S2016x2_S8192x2016_0_12_n_n_12_1_819211 g Tbl.tableR := by
  subst h0
  after_results_simp
  simp only [h33]

set_option maxRecDepth 8192 in
/-- This piece does not write main_arg0. -/
theorem s8_keeps_arg0 (W : Vals) : after (s8 (F := F)) W (main_arg0 : DevRef τ sig) = W (main_arg0 : DevRef τ sig) := by
  after_results_simp

end Cert.ReferenceIdeal.RunValue

end
-- ==== Proof.RefRun.lean ====
/-
  The reference program's run. The program is a straight line of 136 host operations; cut into ten pieces, each
  piece's value has been read off in terms of the previous ones: the Gram array of the input, the strict
  lower-triangle mask, its running sum, the counts per slot, the positions of the set entries, their rows and
  columns, the index table, and last the gather of the Gram array at the table. Chaining the pieces gives the
  value of the whole line at the result buffer; the input buffer is written by no operation.
-/
import proofs.«121595_j44092134261025_2_alg».proof.Proof.RefOps
import proofs.«121595_j44092134261025_2_alg».proof.Proof.RefGram
import proofs.«121595_j44092134261025_2_alg».proof.Proof.RefS1
import proofs.«121595_j44092134261025_2_alg».proof.Proof.RefS2a
import proofs.«121595_j44092134261025_2_alg».proof.Proof.RefS2b
import proofs.«121595_j44092134261025_2_alg».proof.Proof.RefS2c
import proofs.«121595_j44092134261025_2_alg».proof.Proof.RefS3
import proofs.«121595_j44092134261025_2_alg».proof.Proof.RefS4
import proofs.«121595_j44092134261025_2_alg».proof.Proof.RefS5
import proofs.«121595_j44092134261025_2_alg».proof.Proof.RefS6
import proofs.«121595_j44092134261025_2_alg».proof.Proof.RefS7
import proofs.«121595_j44092134261025_2_alg».proof.Proof.RefS8
import proofs.«121595_j44092134261025_2_alg».proof.Proof.Gram
import proofs.«121595_j44092134261025_2_alg».proof.Proof.TableR

noncomputable section

namespace Cert.ReferenceIdeal.RunValue

open Idealize.ShloMosaic Idealize.ShloMosaic.TcCoe Idealize.SL.Sem Cert.ReferenceIdeal
open Idealize.ShloMosaic.StableHlo

/-- The whole line at the result buffer: the Gram array of the input gathered at the reference's index table. -/
theorem v34_eq (V : Valuation τ sig (Elt Ideal)) :
    after (ops (F := Ideal)) V (main_v34 : DevRef τ sig)
      = Host.gather gather_S8192x64x64_S2016x2_S8192x2016_0_12_n_n_12_1_819211
          (Cert.Gram.gram (V (main_arg0 : DevRef τ sig))) Tbl.tableR := by
  rw [ops_split]
  simp only [after_app]
  -- the mask and the Gram array after the first piece
  have a1 := (s1_v4 (F := Ideal) V).trans mask_inst.symm
  have g1 := (s1_v0 (F := Ideal) V _ rfl).trans (RefGram.dot_eq_gram _)
  -- the running sum, the counts, the positions; the Gram array is carried along
  have a2 := s2a_v5 _ a1
  have g2 := (s2a_keeps_v0 _).trans g1
  have a3 := s2b_v15 _ a2
  have g3 := (s2b_keeps_v0 _).trans g2
  have a4 := s2c_v16 _ a3
  have g4 := (s2c_keeps_v0 _).trans g3
  -- the quotients by 64 and the rows; the positions are carried along for the second division
  have a5 := s3_v17 _ a4
  have p5 := (s3_keeps_v16 _).trans a4
  have g5 := (s3_keeps_v0 _).trans g4
  have a6 := s4_v18 _ a5
  have p6 := (s4_keeps_v16 _).trans p5
  have g6 := (s4_keeps_v0 _).trans g5
  -- the quotients by 1 and the columns; the rows are carried along
  have a7 := s5_v19 _ p6
  have r7 := (s5_keeps_v18 _).trans a6
  have g7 := (s5_keeps_v0 _).trans g6
  have a8 := s6_v20 _ a7
  have r8 := (s6_keeps_v18 _).trans r7
  have g8 := (s6_keeps_v0 _).trans g7
  -- the table, then the gather
  have a9 := s7_v33 _ r8 a8
  have g9 := (s7_keeps_v0 _).trans g8
  exact s8_v34 _ _ g9 a9

/-- No operation writes the input. -/
theorem arg0_eq (V : Valuation τ sig (Elt Ideal)) :
    after (ops (F := Ideal)) V (main_arg0 : DevRef τ sig) = V (main_arg0 : DevRef τ sig) := by
  rw [ops_split]
  simp only [after_app]
  rw [s8_keeps_arg0, s7_keeps_arg0, s6_keeps_arg0, s5_keeps_arg0, s4_keeps_arg0, s3_keeps_arg0, s2c_keeps_arg0,
    s2b_keeps_arg0, s2a_keeps_arg0, s1_keeps_arg0]

/-- On every device, from any memory with zero counters: every weakly fair execution of the reference program
    terminates with the result buffer holding the Gram array of the input gathered at the reference's index table,
    and the input unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34)
        = Host.gather gather_S8192x64x64_S2016x2_S8192x2016_0_12_n_n_12_1_819211
            (Cert.Gram.gram (m ((c.tc : Thread nD τ).loc main_arg0))) Cert.ReferenceIdeal.Tbl.tableR
      ∧ r.2.mem ((c.tc : Thread nD τ).loc main_arg0) = m ((c.tc : Thread nD τ).loc main_arg0) :=
  (θ_run defs _ _).mono (fun _ h c => ⟨(h c main_v34).trans (v34_eq _), (h c main_arg0).trans (arg0_eq _)⟩)
    (run_main m ρ)

end Cert.ReferenceIdeal.RunValue

end
-- ==== Proof.TriMask.lean ====
/-
  The reference's mask of the strict lower triangle, read at an index.
  The integer mask compares (row + (-1)) ≥ column as signed 32-bit words; for rows and columns below 64 that
  is column < row. The program then takes the mask through the floats — 1.0 where it is set, 0.0 elsewhere,
  compared ≠ 0.0 — which returns the same mask because 1 ≠ 0 in the extended reals. Flattened row-major,
  position p = 64·i + j is set exactly when p mod 64 < p div 64.
-/
import proofs.«121595_j44092134261025_2_alg».proof.Proof.TableR
import Idealize.ShloMosaic.Lib.Pipeline.Value
import Idealize.ShloMosaic.Lib.ValueIdx
import Idealize.ShloMosaic.PureOps.Ideal.Laws

noncomputable section

namespace Cert.ReferenceIdeal.Tbl

open Idealize.ShloMosaic Idealize.ShloMosaic.ValueIdx Cert.ReferenceIdeal Cert.ReferenceIdeal.Facts₀

/-- For i, j < 64 the signed comparison (i + (-1)) ≥ j of 32-bit words holds exactly when j < i:
    64 × 64 cases of word arithmetic. -/
theorem below_word : ∀ i j : Fin 64,
    IntOp.cmpi .sge (IntOp.addi (BitVec.ofNat 32 i.val) 4294967295#32) (BitVec.ofNat 32 j.val)
      = if j.val < i.val then 1#1 else 0#1 := by decide +kernel

/-- The integer mask at (i, j). -/
theorem below_apply (i j : Fin 64) : below (ix2 i j) = if j.val < i.val then 1#1 else 0#1 :=
  below_word i j

/-- The word 0x3F800000 is the float 1.0: sign 0, exponent field 127, fraction field 0, so 2^23 · 2^(127-127-23). -/
theorem one_f32 : Ideal.ofBits .f32 0x3F800000#32 = ((1 : ℝ) : EReal) := by
  show Ideal.ieee 8 23 (0x3F800000#32 : BitVec 32) = _
  have h1 : ((0x3F800000#32 : BitVec 32).extractLsb' (8 + 23) 1 == 1#1) = false := by decide
  have h2 : ((0x3F800000#32 : BitVec 32).extractLsb' 23 8).toNat = 127 := by decide
  have h3 : ((0x3F800000#32 : BitVec 32).extractLsb' 0 23).toNat = 0 := by decide
  unfold Ideal.ieee
  simp only [h1, h2, h3]
  norm_num

/-- The float 1.0 is not zero, as an extended real. -/
theorem one_ne_zero_f32 : Ideal.ofBits .f32 0x3F800000#32 ≠ 0 := by
  rw [one_f32]
  norm_num

/-- The all-zero float array at an index. -/
theorem fzeros_apply (q : S64x64.Idx) : fzeros q = Ideal.ofBits .f32 0x00000000#32 := rfl

/-- The float triangle at an index: 1.0 where the integer mask is set, else 0.0. -/
theorem tri_apply (q : S64x64.Idx) :
    tri q = Scalar.select (below q) (Ideal.ofBits .f32 0x3F800000#32) (Ideal.ofBits .f32 0x00000000#32) := rfl

/-- The mask at an index: the float triangle compared ≠ 0.0. -/
theorem mask_eq_cmp (q : S64x64.Idx) : mask q = Ideal.cmp .une (tri q) (fzeros q) := by
  unfold mask
  rw [cmpf_apply, Ideal.cmpf_def]

/-- The mask after its round trip through the floats, at (i, j). -/
theorem mask_apply (i j : Fin 64) : mask (ix2 i j) = if j.val < i.val then 1#1 else 0#1 := by
  rw [mask_eq_cmp, tri_apply, fzeros_apply, below_apply]
  by_cases h : j.val < i.val
  · rw [if_pos h, select_one]
    simp [Ideal.cmp, one_ne_zero_f32]
  · rw [if_neg h, select_zero]
    simp [Ideal.cmp]

/-- The flat mask at position p. -/
theorem flat_apply (p : Fin 4096) : flat (ix1 p) = if p.val % 64 < p.val / 64 then 1#32 else 0#32 := by
  have hi : p.val / 64 < 64 := by have := p.isLt; omega
  have hj : p.val % 64 < 64 := Nat.mod_lt _ (by decide)
  show (shapeCast S4096 mask shapeCasts_S64x64_S4096 (ix1 p)).setWidth 32 = _
  rw [shapeCast_apply mask shapeCasts_S64x64_S4096 (ix1 p) (ix2 (⟨p.val / 64, hi⟩ : Fin 64) (⟨p.val % 64, hj⟩ : Fin 64))
    (by rw [Shape.rowMajor_val_two, Shape.rowMajor_val_one]
        show p.val / 64 * 64 + p.val % 64 = p.val
        omega)]
  rw [mask_apply]
  by_cases h : p.val % 64 < p.val / 64
  · rw [if_pos h, if_pos h]; rfl
  · rw [if_neg h, if_neg h]; rfl

end Cert.ReferenceIdeal.Tbl

end
-- ==== Proof.TriCount.lean ====
/-
  Counting the strict lower triangle of a 64×64 matrix in row-major order.
  Position p = 64·i + j (i = p div 64, j = p mod 64) is set when j < i. The number of set positions among
  0 … p is  upTo p = i(i-1)/2 + min (j+1) i : the i(i-1)/2 entries of the rows above, and of row i the
  columns 0 … min (j, i-1). It starts at the first position's bit and grows by each next position's bit,
  so it is the running sum of the bits, it is monotone, and it never exceeds 2016 = 64·63/2.
  Two general facts about sums of 32-bit words over Fin n are proved beside it: a running sum that obeys
  such a step law, and the count of the indices below a bound.
-/
import Mathlib.Data.BitVec
import Mathlib.Algebra.BigOperators.Fin
import Mathlib.Tactic

namespace Cert.TriCount

/-- 1 when position p is in the strict lower triangle, else 0. -/
def bit (p : Nat) : Nat := if p % 64 < p / 64 then 1 else 0

/-- The number of positions 0 … p in the strict lower triangle. -/
def upTo (p : Nat) : Nat := (p / 64) * (p / 64 - 1) / 2 + min (p % 64 + 1) (p / 64)

theorem upTo_zero : upTo 0 = bit 0 := by decide

/-- The count grows by the next position's bit (4095 cases of small arithmetic). -/
theorem upTo_succ : ∀ p : Fin 4095, upTo (p.val + 1) = upTo p.val + bit (p.val + 1) := by decide +kernel

/-- There are 2016 set positions in all. -/
theorem upTo_le : ∀ p : Fin 4096, upTo p.val ≤ 2016 := by decide +kernel

theorem upTo_succ' {p : Nat} (h : p + 1 < 4096) : upTo (p + 1) = upTo p + bit (p + 1) :=
  upTo_succ ⟨p, by omega⟩

/-- The count is monotone over the 4096 positions. -/
theorem upTo_mono {p q : Nat} (hpq : p ≤ q) (hq : q < 4096) : upTo p ≤ upTo q := by
  induction q, hpq using Nat.le_induction with
  | base => exact le_rfl
  | succ q _ ih =>
    have := ih (by omega)
    rw [upTo_succ' hq]
    omega

/-- A running sum of 32-bit words over Fin n: if g starts at f 0 and grows by f at each step,
    the sum of the words f q over q ≤ p is the word g p. -/
theorem sum_le_eq {n : Nat} (f g : Nat → Nat) (h0 : g 0 = f 0)
    (hs : ∀ p, p + 1 < n → g (p + 1) = g p + f (p + 1)) (p : Nat) (hp : p < n) :
    (∑ q : Fin n, if q.val ≤ p then BitVec.ofNat 32 (f q.val) else 0) = BitVec.ofNat 32 (g p) := by
  induction p with
  | zero =>
    rw [Finset.sum_eq_single (⟨0, hp⟩ : Fin n)]
    · rw [if_pos (le_refl _), h0]
    · intro b _ hb
      rw [if_neg]
      intro h
      exact hb (Fin.ext (Nat.le_zero.mp h))
    · intro h; exact absurd (Finset.mem_univ _) h
  | succ p ih =>
    have key : ∀ q : Fin n, (if q.val ≤ p + 1 then BitVec.ofNat 32 (f q.val) else 0)
        = (if q.val ≤ p then BitVec.ofNat 32 (f q.val) else 0)
          + (if q = (⟨p + 1, hp⟩ : Fin n) then BitVec.ofNat 32 (f (p + 1)) else 0) := by
      intro q
      by_cases h1 : q.val ≤ p
      · have h2 : q ≠ (⟨p + 1, hp⟩ : Fin n) := fun h => by rw [h] at h1; simp at h1
        rw [if_pos h1, if_pos (by omega), if_neg h2, add_zero]
      · by_cases h3 : q.val = p + 1
        · have h2 : q = (⟨p + 1, hp⟩ : Fin n) := Fin.ext h3
          rw [if_neg h1, if_pos (by omega), if_pos h2, h3, zero_add]
        · have h2 : q ≠ (⟨p + 1, hp⟩ : Fin n) := fun h => h3 (by rw [h])
          rw [if_neg h1, if_neg (by omega), if_neg h2, add_zero]
    rw [Finset.sum_congr rfl (fun q _ => key q), Finset.sum_add_distrib, ih (by omega),
      Finset.sum_ite_eq' Finset.univ (⟨p + 1, hp⟩ : Fin n), if_pos (Finset.mem_univ _), hs p hp,
      BitVec.ofNat_add]

/-- Counting with 32-bit words the indices of Fin n below a bound P ≤ n gives the word P. -/
theorem sum_lt_eq (n P : Nat) :
    (∑ p : Fin n, if p.val < P then (1 : BitVec 32) else 0) = BitVec.ofNat 32 (min P n) := by
  induction n with
  | zero => simp
  | succ n ih =>
    rw [Fin.sum_univ_castSucc]
    simp only [Fin.val_castSucc, Fin.val_last]
    rw [ih]
    by_cases h : n < P
    · rw [if_pos h, Nat.min_eq_right (le_of_lt h), Nat.min_eq_right (by omega), BitVec.ofNat_add]
      rfl
    · rw [if_neg h, Nat.min_eq_left (by omega), Nat.min_eq_left (by omega), add_zero]

end Cert.TriCount
-- ==== Proof.TriPos.lean ====
/-
  The kernel program's literal pairs against the count of the triangle.
  For the k-th literal pair (r, c) put  posOf k = 64·r + c, its flat position in a 64×64 matrix. Checked
  entry by entry over the 2016 literals: r, c < 64; the position is at least 1; exactly k + 1 set positions
  lie at or before it and exactly k strictly before it. So posOf k is the position of the (k+1)-th set
  entry of the strict lower triangle in row-major order: the literals list the triangle in that order.
-/
import proofs.«121595_j44092134261025_2_alg».proof.Proof.TableK
import proofs.«121595_j44092134261025_2_alg».proof.Proof.TriCount

namespace Cert.KernelIdeal.Tbl

open Cert.KernelIdeal Cert.TriCount

/-- The flat position, in a 64×64 matrix, of the k-th literal pair. -/
def posOf (k : Fin 2016) : Nat := 64 * (lit0 k).toNat + (lit1 k).toNat

/-- The literals list the strict lower triangle in row-major order (2016 cases by evaluation). -/
theorem posOf_spec : ∀ k : Fin 2016,
    (lit0 k).toNat < 64 ∧ (lit1 k).toNat < 64 ∧ 1 ≤ posOf k
      ∧ upTo (posOf k) = k.val + 1 ∧ upTo (posOf k - 1) = k.val := by decide +kernel

end Cert.KernelIdeal.Tbl
-- ==== Proof.Unravel.lean ====
/-
  Unravelling a flat position, one 32-bit word at a time.
  The reference turns the flat position x of a set entry into its row and column with jax's integer
  helpers: floor division (the truncated quotient, less one when the operands' signs differ and the division
  is not exact), the sign-corrected remainder (the truncated remainder by the divisor, 1 in place of a zero
  divisor, plus the divisor when it is not zero and of the other sign), and finally 64 added to a negative
  result. These are written here as functions of one word, and evaluated at the 2016 positions the kernel's
  literal pairs name: row and column come out as the literal pair itself (after the same harmless wrap).
-/
import proofs.«121595_j44092134261025_2_alg».proof.Proof.TriPos

namespace Cert.Unravel

open Idealize.ShloMosaic Cert.KernelIdeal Cert.KernelIdeal.Tbl

/-- The sign of a word: 0, -1 or 1. -/
def sgn (x : BitVec 32) : BitVec 32 := if x = 0 then 0 else if x.msb then -1 else 1

/-- jax's floor division of a word by a word. -/
def fdiv (a d : BitVec 32) : BitVec 32 :=
  Scalar.select (IntOp.andi (IntOp.cmpi .ne (sgn a) (sgn d)) (IntOp.cmpi .ne (IntOp.remsi .host a d) 0#32))
    (IntOp.subi (IntOp.divsi .host a d) 1#32) (IntOp.divsi .host a d)

/-- The divisor with 1 in place of 0. -/
def safe (d : BitVec 32) : BitVec 32 := Scalar.select (IntOp.cmpi .eq d 0#32) 1#32 d

/-- jax's remainder of a word by a word. -/
def frem (a d : BitVec 32) : BitVec 32 :=
  Scalar.select
    (IntOp.andi (IntOp.cmpi .ne (IntOp.cmpi .slt (IntOp.remsi .host a (safe d)) 0#32) (IntOp.cmpi .slt (safe d) 0#32))
      (IntOp.cmpi .ne (IntOp.remsi .host a (safe d)) 0#32))
    (IntOp.addi (IntOp.remsi .host a (safe d)) (safe d)) (IntOp.remsi .host a (safe d))

/-- 64 added to a negative word. -/
def wrapW (x : BitVec 32) : BitVec 32 := Scalar.select (IntOp.cmpi .slt x 0#32) (IntOp.addi x 64#32) x

/-- The row of flat position x: (x div 64) mod 64, wrapped. -/
def rowW (x : BitVec 32) : BitVec 32 := wrapW (frem (fdiv x 64#32) 64#32)
/-- The column of flat position x: (x div 1) mod 64, wrapped. -/
def colW (x : BitVec 32) : BitVec 32 := wrapW (frem (fdiv x 1#32) 64#32)

/-- At the position of the k-th literal pair, row and column are that pair (2016 cases by evaluation). -/
theorem unravel_posOf : ∀ k : Fin 2016,
    rowW (BitVec.ofNat 32 (posOf k)) = wrapW (lit0 k) ∧ colW (BitVec.ofNat 32 (posOf k)) = wrapW (lit1 k) := by
  decide +kernel

/-- Clipping a count below at 0 and adding 2016 to a negative one changes no count up to 2016, and
    such a count reads the same as a signed integer (2017 cases by evaluation). -/
theorem slot_word : ∀ n : Fin 2017,
    Scalar.select (IntOp.cmpi .slt (IntOp.maxsi 0#32 (BitVec.ofNat 32 n.val)) 0#32)
        (IntOp.addi (IntOp.maxsi 0#32 (BitVec.ofNat 32 n.val)) 2016#32) (IntOp.maxsi 0#32 (BitVec.ofNat 32 n.val))
      = BitVec.ofNat 32 n.val ∧ (BitVec.ofNat 32 n.val).toInt = (n.val : Int) := by
  decide +kernel

end Cert.Unravel
-- ==== Proof.LibRunningSum.lean ====
/-
  jax's cumulative sum, read at one element.

  jax writes cumsum of a length-n array as a reduce_window with a window of n positions, stride 1,
  n - 1 positions of padding below and none above. Output element j therefore folds + over the
  window offsets v = 0 … n-1, offset v reading input position j + v - (n-1) when that is not
  negative and the padding (the initial value, zero) otherwise. Since + on machine words is
  associative and commutative, the fold is a finite sum, and re-indexing by q = j + v - (n-1)
  shows it is x 0 + … + x j.
-/
import Idealize.ShloMosaic.PureOps.Ideal
import Idealize.ShloMosaic.Lib.ValueIdx
import Mathlib.Algebra.BigOperators.Fin
import Mathlib.Algebra.BigOperators.Intervals
import Mathlib.Data.BitVec

namespace Cert.RunningSum

open Idealize.ShloMosaic Idealize.ShloMosaic.ValueIdx

/-- A left fold that adds one term per label is the initial value plus the sum of the terms. -/
theorem foldl_add {κ M : Type} [AddCommMonoid M] (f : κ → M) (L : List κ) (a : M) :
    L.foldl (fun r n => r + f n) a = a + (L.map f).sum := by
  induction L generalizing a with
  | nil => simp
  | cons n L ih => rw [List.foldl_cons, ih, List.map_cons, List.sum_cons, add_assoc]

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- The one coordinate of a rank-1 index built from `a` is `a`, on whichever name the axis goes by. -/
theorem ix1_val {n : Nat} (a : Fin n) (d : Fin 1) : (ix1 a d).val = a.val := by
  match d with | ⟨0, _⟩ => rfl

/-- One term of the window's fold, at window offset `q`: the input at position j + q - l when that is
    not negative, zero (the padding) otherwise. `xx` is the input as a total function of the position. -/
theorem window_term {n l w : Nat} (hl : l + 1 = n) (x : IVec ⟨1, ![n]⟩ w) (j : Fin n) (e : 1 = 1)
    (q : (⟨1, ![n]⟩ : Shape).Idx) :
    (if h_1 : ∀ a : Fin 1, ![l] a ≤ (ix1 j (Fin.cast e a)).val * ![1] a + (q a).val ∧
          (ix1 j (Fin.cast e a)).val * ![1] a + (q a).val - ![l] a < (⟨1, ![n]⟩ : Shape).size a
      then x (fun a => ⟨(ix1 j (Fin.cast e a)).val * ![1] a + (q a).val - ![l] a, (h_1 a).2⟩) else 0)
    = if l ≤ j.val + (q 0).val
        then (if hk : j.val + (q 0).val - l < n then x (ix1 ⟨j.val + (q 0).val - l, hk⟩) else 0) else 0 := by
  obtain ⟨v, rfl⟩ : ∃ v, q = ix1 v := ⟨q 0, eq_ix1 q⟩
  have hv' := v.isLt
  have hj := j.isLt
  simp only [ix1_val, Matrix.cons_val_fin_one, mul_one, forall_const]
  by_cases hc : l ≤ j.val + v.val
  · have hk : j.val + v.val - l < n := by omega
    rw [dif_pos ⟨hc, hk⟩, if_pos hc, dif_pos hk]
    congr 1
    funext a
    match a with | ⟨0, _⟩ => rfl
  · rw [dif_neg (fun h => hc h.1), if_neg hc]

/-- jax's cumulative sum as a reduce_window — window n, stride 1, padded l = n-1 low and 0 high, from 0:
    element j is x 0 + … + x j. -/
theorem cumsum_apply {n l w : Nat} (hl : l + 1 = n) (x : IVec ⟨1, ![n]⟩ w) (z : IVec ⟨0, ![]⟩ w) (hz : z ix0 = 0)
    (h : (⟨1, ![n]⟩ : Shape).ReduceWindows ![n] ![1] ![l] ![0] ⟨1, ![n]⟩) (hu : 0 < (⟨0, ![]⟩ : Shape).numel) (j : Fin n) :
    Host.reduceWindow IntOp.addi ![n] ![1] ![l] ![0] x z h hu (ix1 j) = ∑ q : Fin n, if q.val ≤ j.val then x (ix1 q) else 0 := by
  have hv : z (Shape.Idx.first hu) = 0 := by rw [eq_ix0 (Shape.Idx.first hu)]; exact hz
  have hj := j.isLt
  unfold Host.reduceWindow
  dsimp only
  simp only [hv, IntOp.addi]
  rw [foldl_add, zero_add, ← Fin.sum_univ_def]
  -- the input as a total function of the position, zero outside
  let xx : Nat → BitVec w := fun k => if hk : k < n then x (ix1 ⟨k, hk⟩) else 0
  have hxx : ∀ q : Fin n, x (ix1 q) = xx q.val := fun q => by simp [xx, q.isLt]
  -- the window offsets as the coordinate v of the window shape's one axis
  refine Eq.trans (Fintype.sum_equiv ((⟨1, ![n]⟩ : Shape).rowMajor.symm.trans idxEquiv1) _
    (fun v : Fin n => if l ≤ j.val + v.val then xx (j.val + v.val - l) else 0) ?_) ?_
  · intro i
    exact window_term hl x j _ ((⟨1, ![n]⟩ : Shape).rowMajor.symm i)
  · simp only [hxx]
    rw [Fin.sum_univ_eq_sum_range (fun k => if l ≤ j.val + k then xx (j.val + k - l) else 0) n,
      Fin.sum_univ_eq_sum_range (fun k => if k ≤ j.val then xx k else 0) n,
      ← Finset.sum_filter, ← Finset.sum_filter]
    refine Finset.sum_nbij' (fun v => j.val + v - l) (fun q => q + l - j.val) ?_ ?_ ?_ ?_ ?_
    · intro a ha; simp only [Finset.mem_filter, Finset.mem_range] at ha ⊢; omega
    · intro a ha; simp only [Finset.mem_filter, Finset.mem_range] at ha ⊢; omega
    · intro a ha; simp only [Finset.mem_filter, Finset.mem_range] at ha ⊢; omega
    · intro a ha; simp only [Finset.mem_filter, Finset.mem_range] at ha ⊢; omega
    · intro a ha; rfl

end Cert.RunningSum
-- ==== Proof.LibScatterFold.lean ====
/-
  An integer scatter-add read at one element.

  The scatter is a left fold over the update indices in row-major order; each step either leaves the
  array alone (the update falls outside) or adds the update to the one element it lands on. Since
  addition of machine words is associative and commutative, the element at `i` after the whole fold
  is the operand's element plus the sum of all updates that land at `i`.
-/
import Idealize.ShloMosaic.PureOps.Ideal
import Idealize.ShloMosaic.Lib.ValueIdx
import Mathlib.Algebra.BigOperators.Fin
import Mathlib.Data.BitVec

namespace Cert.ScatterFold

open Idealize.ShloMosaic

/-- A left fold whose every step adds, pointwise, a term depending on the step's label: after the
    steps labelled by `L` the value at `i` is the initial one plus the sum of the terms. -/
theorem foldl_pointwise_add {ι κ M : Type} [AddCommMonoid M] (step : (ι → M) → κ → (ι → M)) (g : κ → ι → M)
    (hstep : ∀ r n i, step r n i = r i + g n i) (L : List κ) (r : ι → M) (i : ι) :
    (L.foldl step r) i = r i + (L.map fun n => g n i).sum := by
  induction L generalizing r with
  | nil => simp
  | cons n L ih => rw [List.foldl_cons, ih, hstep, List.map_cons, List.sum_cons, add_assoc]

/-- An integer scatter-add is, element by element, the operand plus the sum of the updates that land
    there; the updates numbered by their row-major position. -/
theorem scatter_addi_apply' {s si u : Shape} {w v : Nat} (d : ScatterDims s si u) (x : IVec s w) (idx : IVec si v)
    (upd : IVec u w) (i : s.Idx) :
    Host.scatter d IntOp.addi x idx upd i
      = x i + ∑ n : Fin u.numel,
          if d.resultIdx? (u.rowMajor.symm n) idx = some i then upd (u.rowMajor.symm n) else 0 := by
  unfold Host.scatter
  rw [foldl_pointwise_add _
    (fun n i => if d.resultIdx? (u.rowMajor.symm n) idx = some i then upd (u.rowMajor.symm n) else 0),
    Fin.sum_univ_def]
  intro r n i
  cases d.resultIdx? (u.rowMajor.symm n) idx with
  | none => simp
  | some i0 =>
    by_cases hi : i = i0
    · subst hi; simp [IntOp.addi]
    · have : ¬ (some i0 = some i) := fun h => hi (Option.some.inj h).symm
      simp [hi, this]

/-- An integer scatter-add is, element by element, the operand plus the sum of the updates that land there. -/
theorem scatter_addi_apply {s si u : Shape} {w v : Nat} (d : ScatterDims s si u) (x : IVec s w) (idx : IVec si v)
    (upd : IVec u w) (i : s.Idx) :
    Host.scatter d IntOp.addi x idx upd i = x i + ∑ j : u.Idx, if d.resultIdx? j idx = some i then upd j else 0 := by
  rw [scatter_addi_apply']
  congr 1
  exact Equiv.sum_comp u.rowMajor.symm fun j => if d.resultIdx? j idx = some i then upd j else 0

end Cert.ScatterFold
-- ==== Proof.TableRStages.lean ====
/-
  The reference's three non-pointwise integer stages, read at one element.

    cum[p]    = flat[0] + … + flat[p]                 (a running sum, written as a padded reduce_window)
    counts[k] = the number of flat positions p whose slot is k   (a scatter-add of ones into zeros)
    pos[k]    = counts[0] + … + counts[k]             (a running sum again)

  All sums are of 32-bit words; only commutativity and associativity of + are used.
-/
import proofs.«121595_j44092134261025_2_alg».proof.Proof.TableR
import proofs.«121595_j44092134261025_2_alg».proof.Proof.LibRunningSum
import proofs.«121595_j44092134261025_2_alg».proof.Proof.LibScatterFold

noncomputable section

namespace Cert.ReferenceIdeal.Tbl

open Idealize.ShloMosaic Idealize.ShloMosaic.ValueIdx Cert.ReferenceIdeal

/-- The running sums start from the word zero. -/
theorem zero0_ix0 : zero0 ix0 = 0 := rfl

/-- The running sum of the flat mask at position p is the sum of the mask's words at positions up to p. -/
theorem cum_apply (p : Fin 4096) : cum (ix1 p) = ∑ q : Fin 4096, if q.val ≤ p.val then flat (ix1 q) else 0 := by
  unfold cum
  exact Cert.RunningSum.cumsum_apply (l := 4095) rfl flat zero0 zero0_ix0 _ _ p

/-- The running sum of the counts at k is the sum of the counts up to k. -/
theorem pos_apply (k : Fin 2016) : pos (ix1 k) = ∑ k' : Fin 2016, if k'.val ≤ k.val then counts (ix1 k') else 0 := by
  unfold pos
  exact Cert.RunningSum.cumsum_apply (l := 2015) rfl counts zero0 zero0_ix0 _ _ k

/-- A shape of rank one has one axis. -/
theorem fin1_eq (a b : Fin 1) : a = b := Subsingleton.elim a b

/-- Update p reads its start index at row p of the index column: the update's one coordinate goes on the
    column's row axis, and the index vector has the one component 0. -/
theorem siIdx_eq (p : Fin 4096) (c : Fin scatter_S2016_S4096x1_S4096_n_0_0_1.scatterDimsToOperandDims.length) :
    scatter_S2016_S4096x1_S4096_n_0_0_1.siIdx (ix1 p) c = ix2 p 0 := by
  funext b
  match b with
  | ⟨0, hb0⟩ =>
    apply Fin.ext
    unfold ScatterDims.siIdx
    rw [dif_neg (show ¬ ((⟨0, hb0⟩ : Fin S4096x1.rank).val = scatter_S2016_S4096x1_S4096_n_0_0_1.indexVectorDim)
      from Nat.zero_ne_one)]
    unfold ScatterDims.siCoord
    simp only [Fin.coe_cast]
    exact Cert.RunningSum.ix1_val p _
  | ⟨1, hb1⟩ =>
    apply Fin.ext
    unfold ScatterDims.siIdx
    rw [dif_pos (show ((⟨1, hb1⟩ : Fin S4096x1.rank).val = scatter_S2016_S4096x1_S4096_n_0_0_1.indexVectorDim) from rfl)]
    have hc : c.val < 1 := c.isLt
    show c.val = 0
    omega

/-- The window of update p starts, on the operand's one axis, at the signed value of row p of the index column. -/
theorem start_eq {v : Nat} (p : Fin 4096) (idx : IVec S4096x1 v) (a : Fin 1) :
    scatter_S2016_S4096x1_S4096_n_0_0_1.start (ix1 p) idx a = (idx (ix2 p 0)).toInt := by
  obtain rfl : a = 0 := fin1_eq _ _
  unfold ScatterDims.start
  rw [dif_pos (by decide), siIdx_eq]

/-- The operand's one axis is inserted, so the window coordinate on it is zero. -/
theorem window_eq (p : Fin 4096) (a : Fin 1) : scatter_S2016_S4096x1_S4096_n_0_0_1.window (ix1 p) a = 0 := by
  obtain rfl : a = 0 := fin1_eq _ _
  unfold ScatterDims.window
  rw [dif_neg (by decide)]

/-- Update p lands at element k exactly when row p of the index column, read signed, is k: the start
    must lie in [0, 2016) to land at all, and every k does. -/
theorem resultIdx?_eq_some_iff {v : Nat} (p : Fin 4096) (idx : IVec S4096x1 v) (k : Fin 2016) :
    scatter_S2016_S4096x1_S4096_n_0_0_1.resultIdx? (ix1 p) idx = some (ix1 k) ↔ (idx (ix2 p 0)).toInt = (k.val : Int) := by
  unfold ScatterDims.resultIdx?
  simp only [start_eq, window_eq]
  have hk := k.isLt
  simp only [Nat.cast_zero, add_zero, Matrix.cons_val_fin_one, forall_const, Nat.cast_ofNat]
  split
  · rename_i h
    rw [Option.some.injEq]
    constructor
    · intro e
      have e0 : (idx (ix2 p 0)).toInt.toNat = k.val := congrArg (fun f => (f 0).val) e
      omega
    · intro e
      funext a
      match a with
      | ⟨0, _⟩ => apply Fin.ext; show (idx (ix2 p 0)).toInt.toNat = k.val; omega
  · rename_i h
    constructor
    · intro e; exact absurd e (by simp)
    · intro e; exact absurd ⟨by omega, by omega⟩ h

/-- The slot column read at row p is the slot of p. -/
theorem col_apply (p : Fin 4096) :
    broadcastInDim S4096x1 ![0] Facts₀.bcast_S4096_S4096x1_0 slot (ix2 p 0) = slot (ix1 p) := by
  unfold broadcastInDim
  refine congrArg slot (funext fun a => ?_)
  match a with
  | ⟨0, h0⟩ => rw [dif_neg (show ¬ S4096.size ⟨0, h0⟩ = 1 from (by norm_num : ¬ (4096 : Nat) = 1))]; rfl

/-- The scatter's operand is zero everywhere. -/
theorem zeros_apply (j : S2016.Idx) :
    broadcastInDim S2016 ![] Facts₀.bcast_S_S2016 (constantI S_ 32 0#32) j = 0 := rfl

/-- Every update is the word one. -/
theorem ones_apply (j : S4096.Idx) :
    broadcastInDim S4096 ![] Facts₀.bcast_S_S4096 (constantI S_ 32 1#32) j = 1 := rfl

/-- The count at k is the number of flat positions whose slot, read signed, is k: the zeros contribute
    nothing and each update that lands at k adds one. -/
theorem counts_apply (k : Fin 2016) :
    counts (ix1 k) = ∑ p : Fin 4096, if (slot (ix1 p)).toInt = (k.val : Int) then (1 : BitVec 32) else 0 := by
  unfold counts
  rw [Cert.ScatterFold.scatter_addi_apply, zeros_apply, zero_add]
  apply Fintype.sum_equiv Cert.RunningSum.idxEquiv1
  intro j
  obtain ⟨p, rfl⟩ : ∃ p : Fin 4096, j = ix1 p := ⟨j 0, eq_ix1 j⟩
  show (if _ = some (ix1 k) then _ else (0 : BitVec 32))
    = if (slot (ix1 p)).toInt = (k.val : Int) then (1 : BitVec 32) else 0
  rw [ones_apply]
  exact if_congr ((resultIdx?_eq_some_iff p _ k).trans (by rw [col_apply])) rfl rfl

end Cert.ReferenceIdeal.Tbl

end
-- ==== Proof.TablePos.lean ====
/-
  The reference's positions are the kernel's literal positions.
  With the three stages read at an index (the running sum of the flat mask, the scatter-add of ones, the
  running sum of the counts):
    cum[p]    = upTo p, the number of set positions among 0 … p;
    slot[p]   = the same word, and as a signed integer it is upTo p;
    counts[k] = the number of positions p with upTo p = k;
    pos[k]    = Σ_{k' ≤ k} counts[k'] = the number of positions p with upTo p ≤ k
              = the number of positions p < posOf k = posOf k,
  because upTo is monotone with exactly k set positions strictly before posOf k and k + 1 up to it, so
  upTo p ≤ k holds exactly for the positions before posOf k. All sums are sums of 32-bit words; they are
  only ever reordered, never bounded.
-/
import proofs.«121595_j44092134261025_2_alg».proof.Proof.TriMask
import proofs.«121595_j44092134261025_2_alg».proof.Proof.TriPos
import proofs.«121595_j44092134261025_2_alg».proof.Proof.Unravel
import proofs.«121595_j44092134261025_2_alg».proof.Proof.TableRStages

noncomputable section

namespace Cert.ReferenceIdeal.Tbl

open Idealize.ShloMosaic Idealize.ShloMosaic.ValueIdx Cert.ReferenceIdeal Cert.TriCount
open Cert.KernelIdeal.Tbl (posOf posOf_spec)

/-- The flat mask as the word of the triangle's bit. -/
theorem flat_word (p : Fin 4096) : flat (ix1 p) = BitVec.ofNat 32 (bit p.val) := by
  rw [flat_apply]
  unfold bit
  by_cases h : p.val % 64 < p.val / 64
  · rw [if_pos h, if_pos h]
  · rw [if_neg h, if_neg h]

/-- The running sum of the flat mask is the count of the triangle. -/
theorem cum_eq (p : Fin 4096) : cum (ix1 p) = BitVec.ofNat 32 (upTo p.val) := by
  rw [cum_apply]
  have h : ∀ q : Fin 4096, (if q.val ≤ p.val then flat (ix1 q) else 0)
      = (if q.val ≤ p.val then BitVec.ofNat 32 (bit q.val) else 0) := fun q => by rw [flat_word]
  rw [Finset.sum_congr rfl (fun q _ => h q)]
  exact sum_le_eq bit upTo upTo_zero (fun q hq => upTo_succ' hq) p.val p.isLt

/-- The slot at a position, as a function of the running sum there. -/
theorem slot_of_cum (p : Fin 4096) : slot (ix1 p)
    = Scalar.select (IntOp.cmpi .slt (IntOp.maxsi 0#32 (cum (ix1 p))) 0#32)
        (IntOp.addi (IntOp.maxsi 0#32 (cum (ix1 p))) 2016#32) (IntOp.maxsi 0#32 (cum (ix1 p))) := rfl

theorem upTo_fin (p : Fin 4096) : upTo p.val < 2017 := by
  have := upTo_le p
  omega

/-- Clipping and wrapping leave the count as it is. -/
theorem slot_eq (p : Fin 4096) : slot (ix1 p) = BitVec.ofNat 32 (upTo p.val) := by
  rw [slot_of_cum, cum_eq]
  exact (Cert.Unravel.slot_word ⟨upTo p.val, upTo_fin p⟩).1

/-- The slot, read signed, is the count. -/
theorem slot_toInt (p : Fin 4096) : (slot (ix1 p)).toInt = (upTo p.val : Int) := by
  rw [slot_eq]
  exact (Cert.Unravel.slot_word ⟨upTo p.val, upTo_fin p⟩).2

/-- counts[k] counts the positions whose count of the triangle is k. -/
theorem counts_eq (k : Fin 2016) :
    counts (ix1 k) = ∑ p : Fin 4096, if upTo p.val = k.val then (1 : BitVec 32) else 0 := by
  rw [counts_apply]
  refine Finset.sum_congr rfl (fun p _ => ?_)
  rw [slot_toInt]
  by_cases h : upTo p.val = k.val
  · rw [if_pos h, if_pos (by rw [h])]
  · rw [if_neg h, if_neg (fun h' => h (by exact_mod_cast h'))]

/-- Among the k' ≤ k exactly one is the count of position p, when that count is at most k. -/
theorem inner_sum (k : Fin 2016) (u : Nat) :
    (∑ k' : Fin 2016, if k'.val ≤ k.val then (if u = k'.val then (1 : BitVec 32) else 0) else 0)
      = if u ≤ k.val then 1 else 0 := by
  by_cases h : u ≤ k.val
  · rw [if_pos h]
    have hu : u < 2016 := lt_of_le_of_lt h k.isLt
    rw [Finset.sum_eq_single (⟨u, hu⟩ : Fin 2016)]
    · rw [if_pos h, if_pos rfl]
    · intro b _ hb
      by_cases h1 : b.val ≤ k.val
      · rw [if_pos h1, if_neg (fun h2 => hb (Fin.ext h2.symm))]
      · rw [if_neg h1]
    · intro h'; exact absurd (Finset.mem_univ _) h'
  · rw [if_neg h]
    refine Finset.sum_eq_zero (fun b _ => ?_)
    by_cases h1 : b.val ≤ k.val
    · rw [if_pos h1, if_neg (fun h2 => h (by omega))]
    · rw [if_neg h1]

/-- The positions whose count is at most k are the positions before posOf k. -/
theorem upTo_le_iff (k : Fin 2016) (p : Fin 4096) : upTo p.val ≤ k.val ↔ p.val < posOf k := by
  obtain ⟨hr, hc, h1, hat, hbefore⟩ := posOf_spec k
  have hlt : posOf k < 4096 := by unfold posOf; omega
  constructor
  · intro h
    by_contra hn
    have := upTo_mono (Nat.le_of_not_lt hn) p.isLt
    omega
  · intro h
    have := upTo_mono (show p.val ≤ posOf k - 1 by omega) (show posOf k - 1 < 4096 by omega)
    omega

/-- One position's share of the double sum: 1 when its count is at most k, that is when it lies before posOf k. -/
theorem share_eq (k : Fin 2016) (p : Fin 4096) :
    (∑ k' : Fin 2016, if k'.val ≤ k.val then (if upTo p.val = k'.val then (1 : BitVec 32) else 0) else 0)
      = (if p.val < posOf k then (1 : BitVec 32) else 0) := by
  rw [inner_sum k (upTo p.val)]
  by_cases h : upTo p.val ≤ k.val
  · rw [if_pos h, if_pos ((upTo_le_iff k p).1 h)]
  · rw [if_neg h, if_neg (fun h' => h ((upTo_le_iff k p).2 h'))]

/-- A count below the bound k, spread over the positions. -/
theorem counts_part (k k' : Fin 2016) : (if k'.val ≤ k.val then counts (ix1 k') else 0)
    = ∑ p : Fin 4096, (if k'.val ≤ k.val then (if upTo p.val = k'.val then (1 : BitVec 32) else 0) else 0) := by
  by_cases h : k'.val ≤ k.val
  · rw [if_pos h, counts_eq]
    exact Finset.sum_congr rfl (fun p _ => by rw [if_pos h])
  · rw [if_neg h]
    exact (Finset.sum_eq_zero (fun p _ => by rw [if_neg h])).symm

/-- The running sum of the counts is the flat position of the k-th literal pair. -/
theorem pos_eq (k : Fin 2016) : pos (ix1 k) = BitVec.ofNat 32 (posOf k) := by
  obtain ⟨hr, hc, _, _, _⟩ := posOf_spec k
  have hlt : posOf k ≤ 4096 := by unfold posOf; omega
  calc pos (ix1 k)
      = ∑ k' : Fin 2016, if k'.val ≤ k.val then counts (ix1 k') else 0 := pos_apply k
    _ = ∑ k' : Fin 2016, ∑ p : Fin 4096,
          (if k'.val ≤ k.val then (if upTo p.val = k'.val then (1 : BitVec 32) else 0) else 0) :=
        Finset.sum_congr rfl (fun k' _ => counts_part k k')
    _ = ∑ p : Fin 4096, ∑ k' : Fin 2016,
          (if k'.val ≤ k.val then (if upTo p.val = k'.val then (1 : BitVec 32) else 0) else 0) := Finset.sum_comm
    _ = ∑ p : Fin 4096, (if p.val < posOf k then (1 : BitVec 32) else 0) :=
        Finset.sum_congr rfl (fun p _ => share_eq k p)
    _ = BitVec.ofNat 32 (min (posOf k) 4096) := sum_lt_eq 4096 (posOf k)
    _ = BitVec.ofNat 32 (posOf k) := by rw [Nat.min_eq_left hlt]

end Cert.ReferenceIdeal.Tbl

end
-- ==== Proof.TableEq.lean ====
/-
  The two index tables are one table.
  Entry by entry, the reference's wrapped row column at k is the row word of pos[k], pos[k] is the flat
  position of the k-th literal pair, and the row word of that position is the (wrapped) literal row;
  the same for the columns. Both tables are then the same two columns laid side by side.
-/
import proofs.«121595_j44092134261025_2_alg».proof.Proof.TablePos

noncomputable section

namespace Cert.TableEq

open Idealize.ShloMosaic Idealize.ShloMosaic.ValueIdx
open Cert.KernelIdeal.Tbl (posOf litRows litCols tableK)
open Cert.ReferenceIdeal.Tbl (rows cols pos pos_eq tableR)

/-- The reference's wrapped row column at k is the row word of pos[k]: every operation in between is entrywise. -/
theorem ref_rows_apply (k : Fin 2016) :
    Cert.ReferenceIdeal.Tbl.wrap rows (ix1 k) = Cert.Unravel.rowW (pos (ix1 k)) := rfl

/-- The reference's wrapped column column at k is the column word of pos[k]. -/
theorem ref_cols_apply (k : Fin 2016) :
    Cert.ReferenceIdeal.Tbl.wrap cols (ix1 k) = Cert.Unravel.colW (pos (ix1 k)) := rfl

/-- The position of index (k) in a one-axis array is k. -/
theorem rowMajor_ix1 (k : Fin 2016) : Cert.KernelIdeal.S2016.rowMajor (ix1 k) = k :=
  Fin.ext (Shape.rowMajor_val_one _)

/-- The kernel program's wrapped row column at k is the wrapped k-th literal row. -/
theorem ker_rows_apply (k : Fin 2016) :
    Cert.KernelIdeal.Tbl.wrap litRows (ix1 k) = Cert.Unravel.wrapW (Cert.KernelIdeal.lit0 k) := by
  show Cert.Unravel.wrapW (Cert.KernelIdeal.lit0 (Cert.KernelIdeal.S2016.rowMajor (ix1 k))) = _
  rw [rowMajor_ix1]

/-- The kernel program's wrapped column column at k is the wrapped k-th literal column. -/
theorem ker_cols_apply (k : Fin 2016) :
    Cert.KernelIdeal.Tbl.wrap litCols (ix1 k) = Cert.Unravel.wrapW (Cert.KernelIdeal.lit1 k) := by
  show Cert.Unravel.wrapW (Cert.KernelIdeal.lit1 (Cert.KernelIdeal.S2016.rowMajor (ix1 k))) = _
  rw [rowMajor_ix1]

/-- The row columns agree. -/
theorem rows_eq : Cert.ReferenceIdeal.Tbl.wrap rows = Cert.KernelIdeal.Tbl.wrap litRows := by
  funext i
  obtain ⟨k, rfl⟩ : ∃ k : Fin 2016, i = ix1 k := ⟨i 0, eq_ix1 i⟩
  rw [ref_rows_apply, pos_eq, ker_rows_apply]
  exact (Cert.Unravel.unravel_posOf k).1

/-- The column columns agree. -/
theorem cols_eq : Cert.ReferenceIdeal.Tbl.wrap cols = Cert.KernelIdeal.Tbl.wrap litCols := by
  funext i
  obtain ⟨k, rfl⟩ : ∃ k : Fin 2016, i = ix1 k := ⟨i 0, eq_ix1 i⟩
  rw [ref_cols_apply, pos_eq, ker_cols_apply]
  exact (Cert.Unravel.unravel_posOf k).2

/-- The reference's computed table is the kernel program's literal table. -/
theorem table_eq : tableR = tableK := by
  unfold Cert.ReferenceIdeal.Tbl.tableR Cert.KernelIdeal.Tbl.tableK
  rw [rows_eq, cols_eq]

end Cert.TableEq

end
-- ==== Proof.lean ====
/-
  Equivalence, over the extended reals, of a Pallas kernel for DLRM feature interaction with its jnp reference.

  Input x : f32[8192, 64, 256]. Both programs return out[b, k] = Z[b, r_k, c_k], where
  Z[b, i, j] = Σ_d x[b, i, d] · x[b, j, d] is the Gram matrix of batch element b's 64 rows and (r_k, c_k),
  k < 2016, runs over the strict lower triangle (c < r) of a 64×64 matrix in row-major order.

  The kernel computes Z block by block (128 batch elements per grid point, 16 at a time inside the body):
  each slab is the product of a chunk with itself, contracted over d, accumulated from zero, on operands
  rounded to bf16 — a rounding that is the identity on the extended reals — and the program then gathers
  Z at a literal table of the 2016 pairs. The reference computes Z by one dot_general and gathers at a table
  it computes itself: the positions of the nonzeros of the triangle's mask, found by a running sum, a
  scatter-add of ones and a second running sum, and unravelled into rows and columns by floor division and
  remainder.

  So the claim rests on two facts. (1) Both Z's are the same sums of the same products (Gram.lean; the
  kernel's side in KernelRun.lean and the modules under it, the reference's in RefRun.lean): only
  commutativity and associativity of + are used, so the inputs' finiteness is never needed. (2) The
  reference's computed table IS the literal table (TableEq.lean): the running sum of the mask is the
  closed-form count of the triangle (TriMask.lean, TriCount.lean), the k-th literal pair sits exactly where
  that count passes from k to k + 1 (TriPos.lean), so the second running sum returns its flat position
  (TablePos.lean over TableRStages.lean), which unravels to the pair (Unravel.lean).

  The three frames: the two kernel programs' are the generated frame certificates; the reference has no
  kernel, and its frame is its run with the result forgotten. The ideal pass rewrote nothing, so the
  idealization conjunct is trivial.
-/
import proofs.«121595_j44092134261025_2_alg».proof.Defs
import proofs.«121595_j44092134261025_2_alg».proof.Proof.Gen.Kernel
import proofs.«121595_j44092134261025_2_alg».proof.Proof.Gen.Kernel.Frame
import proofs.«121595_j44092134261025_2_alg».proof.Proof.Gen.KernelIdeal
import proofs.«121595_j44092134261025_2_alg».proof.Proof.Gen.KernelIdeal.Frame
import proofs.«121595_j44092134261025_2_alg».proof.Proof.Gen.ReferenceIdeal
import proofs.«121595_j44092134261025_2_alg».proof.Proof.Gen.Pre_finite_inputs
import proofs.«121595_j44092134261025_2_alg».proof.Proof.KernelRun
import proofs.«121595_j44092134261025_2_alg».proof.Proof.RefRun
import proofs.«121595_j44092134261025_2_alg».proof.Proof.TableEq

noncomputable section

namespace Cert.Proof

open Idealize.ShloMosaic Idealize.ShloMosaic.TcCoe Idealize.SL.Sem

/-- The word-level kernel program runs and leaves its input unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its input unchanged: its run, with the result forgotten. -/
theorem frame_referenceIdeal : Cert.frame_ReferenceIdeal := fun m ρ _ =>
  (θ_run Cert.ReferenceIdeal.defs _ _).mono (fun _ h c => (h c).2) (Cert.ReferenceIdeal.RunValue.run m ρ)

/-- Both programs end with the Gram array gathered at one and the same table of pairs. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.RunValue.run m' ρ')
  rw [hagree c, Cert.TableEq.table_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
